-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v108)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v108) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v114) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000x16 : Shape := ⟨2, ![1600000, 16]⟩
abbrev S2x1600000 : Shape := ⟨2, ![2, 1600000]⟩
abbrev S32x64 : Shape := ⟨2, ![32, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S16x64 : S_.BroadcastsInDim S16x64 (![] : Fin 0 → Fin S16x64.rank)
  reducesTo_S16x64_S_d0_1 : S16x64.ReducesTo [0, 1] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S3x64 .f32) (main_arg9 : FVec F S64x32 .f32) (main_arg10 : FVec F S32 .f32) (main_arg11 : FVec F S32x1 .f32) (main_arg12 : FVec F S1 .f32) (main_v33 : IVec S_ 1) : IVec S_ 1 :=
  let main_v34 : FVec F S3x64 .f32 := Host.absf main_arg8
  let main_cst_12 : FVec F S_ .f32 := constant S_ .f32 0x7F800000#32
  let main_v35 : FVec F S3x64 .f32 := broadcastInDim S3x64 ![] bcast_S_S3x64 main_cst_12
  let main_v36 : IVec S3x64 1 := cmpf .olt main_v34 main_v35
  let main_c_13 : IVec S_ 1 := constantI S_ 1 1#1
  let main_v37 : IVec S_ 1 := (fun x v => Host.reduce IntOp.andi x v reducesTo_S3x64_S_d0_1 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S16x64 .f32) (main_arg6 : FVec F S64 .f32) (main_arg7 : FVec F S3x64x64 .f32) (main_arg8 : FVec F S3x64 .f32) (main_arg9 : FVec F S64x32 .f32) (main_arg10 : FVec F S32 .f32) (main_arg11 : FVec F S32x1 .f32) (main_arg12 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S16x64 .f32 := Host.absf main_arg5
  let main_cst_6 : FVec F S_ .f32 := constant S_ .f32 0x7F800000#32
  let main_v20 : FVec F S16x64 .f32 := broadcastInDim S16x64 ![] bcast_S_S16x64 main_cst_6
  let main_v21 : IVec S16x64 1 := cmpf .olt main_v19 main_v20
  let main_c_7 : IVec S_ 1 := constantI S_ 1 1#1
  let main_v22 : IVec S_ 1 := (fun x v => Host.reduce IntOp.andi x v reducesTo_S16x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x32 .f32) (main_arg1 : FVec F S1600000x16 .f32) (main_arg2 : IVec S2x1600000 32) (main_arg3 : FVec F S32x64 .f32) (main_arg4 : FVec F S64 .f32) (main_arg5 : FVec F S16x64 .f32) (main_arg6 : FVec F S64 .f32) (main_arg7 : FVec F S3x64x64 .f32) (main_arg8 : FVec F S3x64 .f32) (main_arg9 : FVec F S64x32 .f32) (main_arg10 : FVec F S32 .f32) (main_arg11 : FVec F S32x1 .f32) (main_arg12 : FVec F S1 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000x16 .f32 := Host.absf main_arg1
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S32x64 .f32 := Host.absf main_arg3
  let main_cst_2 : FVec F S_ .f32 := constant S_ .f32 0x7F800000#32
  let main_v10 : FVec F S32x64 .f32 := broadcastInDim S32x64 ![] bcast_S_S32x64 main_cst_2
  let main_v11 : IVec S32x64 1 := cmpf .olt main_v9 main_v10
  let main_c_3 : IVec S_ 1 := constantI S_ 1 1#1
  let main_v12 : IVec S_ 1 := (fun x v => Host.reduce IntOp.andi x v reducesTo_S32x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_v13 main_v16
-- ==== Kernel.lean ====
abbrev S100000x32 : Shape := ⟨2, ![100000, 32]⟩
abbrev S1600000x16 : Shape := ⟨2, ![1600000, 16]⟩
abbrev S2x1600000 : Shape := ⟨2, ![2, 1600000]⟩
abbrev S32x64 : Shape := ⟨2, ![32, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S1x64x64 : Shape := ⟨3, ![1, 64, 64]⟩
abbrev S64x64 : Shape := ⟨2, ![64, 64]⟩
abbrev S1700000x64 : Shape := ⟨2, ![1700000, 64]⟩
abbrev S1x32 : Shape := ⟨2, ![1, 32]⟩
abbrev S1x1 : Shape := ⟨2, ![1, 1]⟩

abbrev nBuf : Space → Nat
  | .hbm => 151
  | .vmem => 27
  | .smem => 0
  | _ => 0

abbrev hbmTy0_0 (i : Nat) : BufTy := match i % 128 with
  | 0 => ⟨S100000x32, .f32⟩
  | 1 => ⟨S1600000x16, .f32⟩
  | 2 => ⟨S2x1600000, .i32⟩
  | 3 => ⟨S32x64, .f32⟩
  | 4 => ⟨S64, .f32⟩
  | 5 => ⟨S16x64, .f32⟩
  | 6 => ⟨S64, .f32⟩
  | 7 => ⟨S3x64x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S1x64, .f32⟩
  | 54 => ⟨S100000x64, .f32⟩
  | 55 => ⟨S_, .f32⟩
  | 56 => ⟨S1x64, .f32⟩
  | 57 => ⟨S1x64x64, .f32⟩
  | 58 => ⟨S64x64, .f32⟩
  | 59 => ⟨S100000x64, .f32⟩
  | 60 => ⟨S_, .i32⟩
  | 61 => ⟨S1700000, .i32⟩
  | 62 => ⟨S1700000, .i1⟩
  | 63 => ⟨S_, .i32⟩
  | 64 => ⟨S1700000, .i32⟩
  | 65 => ⟨S1700000, .i32⟩
  | 66 => ⟨S1700000, .i32⟩
  | 67 => ⟨S1700000x1, .i32⟩
  | 68 => ⟨S1700000x64, .f32⟩
  | 69 => ⟨S1700000x1, .f32⟩
  | 70 => ⟨S1700000x64, .f32⟩
  | 71 => ⟨S1700000x64, .f32⟩
  | 72 => ⟨S_, .f32⟩
  | 73 => ⟨S100000x64, .f32⟩
  | 74 => ⟨S1700000x1, .i32⟩
  | 75 => ⟨S100000x64, .f32⟩
  | 76 => ⟨S1x64, .f32⟩
  | 77 => ⟨S64, .f32⟩
  | 78 => ⟨S1x64, .f32⟩
  | 79 => ⟨S100000x64, .f32⟩
  | 80 => ⟨S100000x64, .f32⟩
  | 81 => ⟨S_, .f32⟩
  | 82 => ⟨S100000x64, .f32⟩
  | 83 => ⟨S100000x64, .f32⟩
  | 84 => ⟨S1x64x64, .f32⟩
  | 85 => ⟨S64x64, .f32⟩
  | 86 => ⟨S100000x64, .f32⟩
  | 87 => ⟨S_, .i32⟩
  | 88 => ⟨S1700000, .i32⟩
  | 89 => ⟨S1700000, .i1⟩
  | 90 => ⟨S_, .i32⟩
  | 91 => ⟨S1700000, .i32⟩
  | 92 => ⟨S1700000, .i32⟩
  | 93 => ⟨S1700000, .i32⟩
  | 94 => ⟨S1700000x1, .i32⟩
  | 95 => ⟨S1700000x64, .f32⟩
  | 96 => ⟨S1700000x1, .f32⟩
  | 97 => ⟨S1700000x64, .f32⟩
  | 98 => ⟨S1700000x64, .f32⟩
  | 99 => ⟨S_, .f32⟩
  | 100 => ⟨S100000x64, .f32⟩
  | 101 => ⟨S1700000x1, .i32⟩
  | 102 => ⟨S100000x64, .f32⟩
  | 103 => ⟨S1x64, .f32⟩
  | 104 => ⟨S64, .f32⟩
  | 105 => ⟨S1x64, .f32⟩
  | 106 => ⟨S100000x64, .f32⟩
  | 107 => ⟨S100000x64, .f32⟩
  | 108 => ⟨S_, .f32⟩
  | 109 => ⟨S100000x64, .f32⟩
  | 110 => ⟨S100000x64, .f32⟩
  | 111 => ⟨S1x64x64, .f32⟩
  | 112 => ⟨S64x64, .f32⟩
  | 113 => ⟨S100000x64, .f32⟩
  | 114 => ⟨S_, .i32⟩
  | 115 => ⟨S1700000, .i32⟩
  | 116 => ⟨S1700000, .i1⟩
  | 117 => ⟨S_, .i32⟩
  | 118 => ⟨S1700000, .i32⟩
  | 119 => ⟨S1700000, .i32⟩
  | 120 => ⟨S1700000, .i32⟩
  | 121 => ⟨S1700000x1, .i32⟩
  | 122 => ⟨S1700000x64, .f32⟩
  | 123 => ⟨S1700000x1, .f32⟩
  | 124 => ⟨S1700000x64, .f32⟩
  | 125 => ⟨S1700000x64, .f32⟩
  | 126 => ⟨S_, .f32⟩
  | 127 => ⟨S100000x64, .f32⟩
  | _ => ⟨S100000x32, .f32⟩

abbrev hbmTy0_1 (i : Nat) : BufTy := match i % 128 with
  | 0 => ⟨S1700000x1, .i32⟩
  | 1 => ⟨S100000x64, .f32⟩
  | 2 => ⟨S1x64, .f32⟩
  | 3 => ⟨S64, .f32⟩
  | 4 => ⟨S1x64, .f32⟩
  | 5 => ⟨S100000x64, .f32⟩
  | 6 => ⟨S100000x64, .f32⟩
  | 7 => ⟨S_, .f32⟩
  | 8 => ⟨S100000x64, .f32⟩
  | 9 => ⟨S100000x64, .f32⟩
  | 10 => ⟨S1x64, .f32⟩
  | 11 => ⟨S_, .f32⟩
  | 12 => ⟨S1x64, .f32⟩
  | 13 => ⟨S1x64, .f32⟩
  | 14 => ⟨S1x32, .f32⟩
  | 15 => ⟨S1x32, .f32⟩
  | 16 => ⟨S1x32, .f32⟩
  | 17 => ⟨S_, .f32⟩
  | 18 => ⟨S1x32, .f32⟩
  | 19 => ⟨S1x32, .f32⟩
  | 20 => ⟨S1x1, .f32⟩
  | 21 => ⟨S1x1, .f32⟩
  | 22 => ⟨S1x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S1x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_7 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call1_cst : Ref sig .tc := ⟨.hbm, 81, rfl⟩
abbrev main_call1_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_c_11 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_12 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_call2_cst : Ref sig .tc := ⟨.hbm, 108, rfl⟩
abbrev main_call2_v0 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_c_13 : Ref sig .tc := ⟨.hbm, 114, rfl⟩
abbrev main_v80 : Ref sig .tc := ⟨.hbm, 115, rfl⟩
abbrev main_v81 : Ref sig .tc := ⟨.hbm, 116, rfl⟩
abbrev main_c_14 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_15 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_call3_cst : Ref sig .tc := ⟨.hbm, 135, rfl⟩
abbrev main_call3_v0 : Ref sig .tc := ⟨.hbm, 136, rfl⟩
abbrev main_v98 : Ref sig .tc := ⟨.hbm, 137, rfl⟩
abbrev main_v99 : Ref sig .tc := ⟨.hbm, 138, rfl⟩
abbrev main_cst_16 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_call4_cst : Ref sig .tc := ⟨.hbm, 145, rfl⟩
abbrev main_call4_v0 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S1x64 : S_.BroadcastsInDim S1x64 (![] : Fin 0 → Fin S1x64.rank)
  slices_S3x64x64_S1x64x64_0_0_0 : S3x64x64.Slices ![0, 0, 0] S1x64x64
  shapeCasts_S1x64x64_S64x64 : S1x64x64.ShapeCasts S64x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  reduces_S5000x64_S64 : S5000x64.Reduces [0] S64
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x32_S32x64_S5000x64_1_0_0_1_n_n_wf : DotDims.WF S5000x32 S32x64 S5000x64 [1] [0] [0] [1] [] []
  dot_S5000x64_S64x64_S5000x64_1_0_0_1_n_n_wf : DotDims.WF S5000x64 S64x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v31) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v54) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v76) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v78) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v32) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v98) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v99) S1x64.size cc4_transform_1 reads4_1 true true 1 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x32 : Shape := ⟨2, ![100000, 32]⟩
abbrev S1600000x16 : Shape := ⟨2, ![1600000, 16]⟩
abbrev S2x1600000 : Shape := ⟨2, ![2, 1600000]⟩
abbrev S32x64 : Shape := ⟨2, ![32, 64]⟩
abbrev S64 : Shape := ⟨1, ![64]⟩
abbrev S16x64 : Shape := ⟨2, ![16, 64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1x64 : Shape := ⟨2, ![1, 64]⟩
abbrev S1600000x64 : Shape := ⟨2, ![1600000, 64]⟩
abbrev S1x64x64 : Shape := ⟨3, ![1, 64, 64]⟩
abbrev S64x64 : Shape := ⟨2, ![64, 64]⟩
abbrev S1700000x64 : Shape := ⟨2, ![1700000, 64]⟩
abbrev S1x32 : Shape := ⟨2, ![1, 32]⟩
abbrev S1x1 : Shape := ⟨2, ![1, 1]⟩

abbrev nBuf : Space → Nat
  | .hbm => 157
  | .vmem => 0
  | .smem => 0
  | _ => 0

abbrev hbmTy0_0 (i : Nat) : BufTy := match i % 128 with
  | 0 => ⟨S100000x32, .f32⟩
  | 1 => ⟨S1600000x16, .f32⟩
  | 2 => ⟨S2x1600000, .i32⟩
  | 3 => ⟨S32x64, .f32⟩
  | 4 => ⟨S64, .f32⟩
  | 5 => ⟨S16x64, .f32⟩
  | 6 => ⟨S64, .f32⟩
  | 7 => ⟨S3x64x64, .f32⟩
  | 8 => ⟨S3x64, .f32⟩
  | 9 => ⟨S64x32, .f32⟩
  | 10 => ⟨S32, .f32⟩
  | 11 => ⟨S32x1, .f32⟩
  | 12 => ⟨S1, .f32⟩
  | 13 => ⟨S1x1600000, .i32⟩
  | 14 => ⟨S1600000, .i32⟩
  | 15 => ⟨S1x1600000, .i32⟩
  | 16 => ⟨S1600000, .i32⟩
  | 17 => ⟨S100000, .i32⟩
  | 18 => ⟨S1700000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x64, .f32⟩
  | 54 => ⟨S1x64, .f32⟩
  | 55 => ⟨S100000x64, .f32⟩
  | 56 => ⟨S100000x64, .f32⟩
  | 57 => ⟨S1600000x64, .f32⟩
  | 58 => ⟨S1x64, .f32⟩
  | 59 => ⟨S1600000x64, .f32⟩
  | 60 => ⟨S1600000x64, .f32⟩
  | 61 => ⟨S1x64x64, .f32⟩
  | 62 => ⟨S64x64, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S1700000x64, .f32⟩
  | 73 => ⟨S1700000x1, .f32⟩
  | 74 => ⟨S1700000x64, .f32⟩
  | 75 => ⟨S1700000x64, .f32⟩
  | 76 => ⟨S_, .f32⟩
  | 77 => ⟨S100000x64, .f32⟩
  | 78 => ⟨S1700000x1, .i32⟩
  | 79 => ⟨S100000x64, .f32⟩
  | 80 => ⟨S1x64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S100000x64, .f32⟩
  | 87 => ⟨S100000x64, .f32⟩
  | 88 => ⟨S1x64x64, .f32⟩
  | 89 => ⟨S64x64, .f32⟩
  | 90 => ⟨S100000x64, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1x64x64, .f32⟩
  | 116 => ⟨S64x64, .f32⟩
  | 117 => ⟨S100000x64, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000x64, .f32⟩
  | 127 => ⟨S1700000x1, .f32⟩
  | _ => ⟨S100000x32, .f32⟩

abbrev hbmTy0_1 (i : Nat) : BufTy := match i % 128 with
  | 0 => ⟨S1700000x64, .f32⟩
  | 1 => ⟨S1700000x64, .f32⟩
  | 2 => ⟨S_, .f32⟩
  | 3 => ⟨S100000x64, .f32⟩
  | 4 => ⟨S1700000x1, .i32⟩
  | 5 => ⟨S100000x64, .f32⟩
  | 6 => ⟨S1x64, .f32⟩
  | 7 => ⟨S64, .f32⟩
  | 8 => ⟨S1x64, .f32⟩
  | 9 => ⟨S100000x64, .f32⟩
  | 10 => ⟨S100000x64, .f32⟩
  | 11 => ⟨S_, .f32⟩
  | 12 => ⟨S100000x64, .f32⟩
  | 13 => ⟨S100000x64, .f32⟩
  | 14 => ⟨S_, .f32⟩
  | 15 => ⟨S64, .f32⟩
  | 16 => ⟨S1x64, .f32⟩
  | 17 => ⟨S_, .f32⟩
  | 18 => ⟨S1x64, .f32⟩
  | 19 => ⟨S1x64, .f32⟩
  | 20 => ⟨S1x32, .f32⟩
  | 21 => ⟨S1x32, .f32⟩
  | 22 => ⟨S1x32, .f32⟩
  | 23 => ⟨S_, .f32⟩
  | 24 => ⟨S1x32, .f32⟩
  | 25 => ⟨S1x32, .f32⟩
  | 26 => ⟨S1x1, .f32⟩
  | 27 => ⟨S1x1, .f32⟩
  | 28 => ⟨S1x1, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_c_6 : Ref sig .tc := ⟨.hbm, 64, rfl⟩
abbrev main_v41 : Ref sig .tc := ⟨.hbm, 65, rfl⟩
abbrev main_v42 : Ref sig .tc := ⟨.hbm, 66, rfl⟩
abbrev main_c_7 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_8 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_9 : Ref sig .tc := ⟨.hbm, 91, rfl⟩
abbrev main_v63 : Ref sig .tc := ⟨.hbm, 92, rfl⟩
abbrev main_v64 : Ref sig .tc := ⟨.hbm, 93, rfl⟩
abbrev main_c_10 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_11 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_call2_cst : Ref sig .tc := ⟨.hbm, 112, rfl⟩
abbrev main_call2_v0 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_c_12 : Ref sig .tc := ⟨.hbm, 118, rfl⟩
abbrev main_v85 : Ref sig .tc := ⟨.hbm, 119, rfl⟩
abbrev main_v86 : Ref sig .tc := ⟨.hbm, 120, rfl⟩
abbrev main_c_13 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_14 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_call3_cst : Ref sig .tc := ⟨.hbm, 139, rfl⟩
abbrev main_call3_v0 : Ref sig .tc := ⟨.hbm, 140, rfl⟩
abbrev main_v103 : Ref sig .tc := ⟨.hbm, 141, rfl⟩
abbrev main_cst_15 : Ref sig .tc := ⟨.hbm, 142, rfl⟩
abbrev main_v104 : Ref sig .tc := ⟨.hbm, 143, rfl⟩
abbrev main_v105 : Ref sig .tc := ⟨.hbm, 144, rfl⟩
abbrev main_cst_16 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_call4_cst : Ref sig .tc := ⟨.hbm, 151, rfl⟩
abbrev main_call4_v0 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  slices_S3x64x64_S1x64x64_0_0_0 : S3x64x64.Slices ![0, 0, 0] S1x64x64
  shapeCasts_S1x64x64_S64x64 : S1x64x64.ShapeCasts S64x64
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  reducesTo_S100000x64_S64_d0 : S100000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  bcast_S_S1x32 : S_.BroadcastsInDim S1x32 (![] : Fin 0 → Fin S1x32.rank)
  bcast_S1_S1x1_1 : S1.BroadcastsInDim S1x1 (![1] : Fin 1 → Fin S1x1.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x32_S32x64_S100000x64_1_0_0_1_n_n_wf : DotDims.WF S100000x32 S32x64 S100000x64 [1] [0] [0] [1] [] []
  dot_S1600000x16_S16x64_S1600000x64_1_0_0_1_n_n_wf : DotDims.WF S1600000x16 S16x64 S1600000x64 [1] [0] [0] [1] [] []
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S1x64_S64x32_S1x32_1_0_0_1_n_n_wf : DotDims.WF S1x64 S64x32 S1x32 [1] [0] [0] [1] [] []
  dot_S1x32_S32x1_S1x1_1_0_0_1_n_n_wf : DotDims.WF S1x32 S32x1 S1x1 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf
def dot_S1x32_S32x1_S1x1_1_0_0_1_n_n : DotDims S1x32 S32x1 S1x1 where
  lhsContracting := [1]
  rhsContracting := [0]
  lhsNonContracting := [0]
  rhsNonContracting := [1]
  lhsBatch := []
  rhsBatch := []
  wf := dot_S1x32_S32x1_S1x1_1_0_0_1_n_n_wf

class Facts : Prop extends Facts₀ where

variable [Facts]
-- ==== Proof.KernelRun.lean ====
/-
  The idealized kernel's run with its result named. The program is five kernel launches among stretches of host
  operations; its run ends, on every device, with the result buffer at the last boundary's contents — the fold of
  every host operation and every launch's write-backs from the launch memory — and with the arguments unchanged.
  The launch is the same one that gives the frame; only what is read off the final state differs: here also the
  result buffer.
-/
import proofs.«117915_j33311766347862_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the contents the
    last boundary gives it, and every argument array ends as launched. -/
theorem run_value : θ_run defs (onTc (τ := τ) (main (F := F))) ⟨m, fun _ => 0, ρ⟩ (fun r => ∀ c : Dev nD,
      r.2.mem ((c.tc : Thread nD τ).loc main_v108) = W20 m ρ c (Proc.devRef .tc main_v108)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v108 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩)

end Cert.KernelIdeal.RunValue

end
-- ==== Proof.HostKeep.lean ====
/-
  The host operations between the kernel launches, stretch by stretch: which buffers each stretch writes, and that a
  buffer a stretch does not write keeps its contents through it.
-/
import proofs.«117915_j33311766347862_1_alg».proof.Proof.Gen.KernelIdeal.Launch
import Idealize.ShloMosaic.Lib.StableHlo.Run
import Idealize.ShloMosaic.PureOps.Ideal

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen
/-! ## The buffers each stretch writes -/

abbrev hostOps0_W : List (Ref sig .tc) := [main_v0, main_v1, main_v2, main_v3, main_v4, main_v5, main_v6, main_cst, main_v7, main_cst_0, main_v8, main_v9, main_v10, main_cst_1, main_v11, main_v12, main_v13, main_cst_2]
theorem hostOps0_writes : (hostOps0 : List (HloOp τ sig (Elt Ideal))).Forall fun op => op.writes ⊆ (hostOps0_W.map (Proc.devRef (τ := τ) .tc)).toFinset := by
  simp only [hostOps0, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps0_1_W : List (Ref sig .tc) := [main_call0_v0, main_call0_v1, main_v14]
theorem hostOps0_1_writes : (hostOps0_1 : List (HloOp τ sig (Elt Ideal))).Forall fun op => op.writes ⊆ (hostOps0_1_W.map (Proc.devRef (τ := τ) .tc)).toFinset := by
  simp only [hostOps0_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps0_2_W : List (Ref sig .tc) := [main_c, main_v15, main_v16, main_c_3, main_v17, main_v18, main_v19, main_v20, main_v21, main_c_4, main_v22, main_v23, main_c_5, main_v24, main_v25, main_v26, main_v27, main_v28, main_v29, main_v30]
theorem hostOps0_2_writes : (hostOps0_2 : List (HloOp τ sig (Elt Ideal))).Forall fun op => op.writes ⊆ (hostOps0_2_W.map (Proc.devRef (τ := τ) .tc)).toFinset := by
  simp only [hostOps0_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps1_W : List (Ref sig .tc) := [main_cst_6, main_v32, main_v33, main_v34]
theorem hostOps1_writes : (hostOps1 : List (HloOp τ sig (Elt Ideal))).Forall fun op => op.writes ⊆ (hostOps1_W.map (Proc.devRef (τ := τ) .tc)).toFinset := by
  simp only [hostOps1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps2_W : List (Ref sig .tc) := [main_c_7, main_v36, main_v37, main_c_8, main_v38, main_v39, main_v40, main_v41, main_v42, main_v43, main_v44, main_v45, main_cst_9, main_v46, main_v47, main_v48, main_v49, main_v50, main_v51, main_v52, main_v53]
theorem hostOps2_writes : (hostOps2 : List (HloOp τ sig (Elt Ideal))).Forall fun op => op.writes ⊆ (hostOps2_W.map (Proc.devRef (τ := τ) .tc)).toFinset := by
  simp only [hostOps2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps2_1_W : List (Ref sig .tc) := [main_call1_cst, main_call1_v0, main_v54]
theorem hostOps2_1_writes : (hostOps2_1 : List (HloOp τ sig (Elt Ideal))).Forall fun op => op.writes ⊆ (hostOps2_1_W.map (Proc.devRef (τ := τ) .tc)).toFinset := by
  simp only [hostOps2_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps2_2_W : List (Ref sig .tc) := [main_v55, main_v56]
theorem hostOps2_2_writes : (hostOps2_2 : List (HloOp τ sig (Elt Ideal))).Forall fun op => op.writes ⊆ (hostOps2_2_W.map (Proc.devRef (τ := τ) .tc)).toFinset := by
  simp only [hostOps2_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps3_W : List (Ref sig .tc) := [main_c_10, main_v58, main_v59, main_c_11, main_v60, main_v61, main_v62, main_v63, main_v64, main_v65, main_v66, main_v67, main_cst_12, main_v68, main_v69, main_v70, main_v71, main_v72, main_v73, main_v74, main_v75]
theorem hostOps3_writes : (hostOps3 : List (HloOp τ sig (Elt Ideal))).Forall fun op => op.writes ⊆ (hostOps3_W.map (Proc.devRef (τ := τ) .tc)).toFinset := by
  simp only [hostOps3, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps3_1_W : List (Ref sig .tc) := [main_call2_cst, main_call2_v0, main_v76]
theorem hostOps3_1_writes : (hostOps3_1 : List (HloOp τ sig (Elt Ideal))).Forall fun op => op.writes ⊆ (hostOps3_1_W.map (Proc.devRef (τ := τ) .tc)).toFinset := by
  simp only [hostOps3_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps3_2_W : List (Ref sig .tc) := [main_v77, main_v78]
theorem hostOps3_2_writes : (hostOps3_2 : List (HloOp τ sig (Elt Ideal))).Forall fun op => op.writes ⊆ (hostOps3_2_W.map (Proc.devRef (τ := τ) .tc)).toFinset := by
  simp only [hostOps3_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps4_W : List (Ref sig .tc) := [main_c_13, main_v80, main_v81, main_c_14, main_v82, main_v83, main_v84, main_v85, main_v86, main_v87, main_v88, main_v89, main_cst_15, main_v90, main_v91, main_v92, main_v93, main_v94, main_v95, main_v96, main_v97]
theorem hostOps4_writes : (hostOps4 : List (HloOp τ sig (Elt Ideal))).Forall fun op => op.writes ⊆ (hostOps4_W.map (Proc.devRef (τ := τ) .tc)).toFinset := by
  simp only [hostOps4, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps4_1_W : List (Ref sig .tc) := [main_call3_cst, main_call3_v0, main_v98]
theorem hostOps4_1_writes : (hostOps4_1 : List (HloOp τ sig (Elt Ideal))).Forall fun op => op.writes ⊆ (hostOps4_1_W.map (Proc.devRef (τ := τ) .tc)).toFinset := by
  simp only [hostOps4_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps5_W : List (Ref sig .tc) := [main_cst_16, main_v100, main_v101, main_v102, main_v103, main_v104]
theorem hostOps5_writes : (hostOps5 : List (HloOp τ sig (Elt Ideal))).Forall fun op => op.writes ⊆ (hostOps5_W.map (Proc.devRef (τ := τ) .tc)).toFinset := by
  simp only [hostOps5, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps5_1_W : List (Ref sig .tc) := [main_call4_cst, main_call4_v0, main_v105]
theorem hostOps5_1_writes : (hostOps5_1 : List (HloOp τ sig (Elt Ideal))).Forall fun op => op.writes ⊆ (hostOps5_1_W.map (Proc.devRef (τ := τ) .tc)).toFinset := by
  simp only [hostOps5_1, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

abbrev hostOps5_2_W : List (Ref sig .tc) := [main_v106, main_v107, main_v108]
theorem hostOps5_2_writes : (hostOps5_2 : List (HloOp τ sig (Elt Ideal))).Forall fun op => op.writes ⊆ (hostOps5_2_W.map (Proc.devRef (τ := τ) .tc)).toFinset := by
  simp only [hostOps5_2, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

/-! ## The stretches between launches, and what each leaves untouched -/

/-- The buffer contents after stretch A, from contents `V`. -/
abbrev afterA (V : Valuation τ sig (Elt Ideal)) : Valuation τ sig (Elt Ideal) := StableHlo.after hostOps0_2 (StableHlo.after hostOps0_1 (StableHlo.after hostOps0 (V)))
/-- A buffer stretch A does not write keeps its contents. -/
theorem keepA (V : Valuation τ sig (Elt Ideal)) (r : Ref sig .tc) (h0 : r ∉ hostOps0_W) (h1 : r ∉ hostOps0_1_W) (h2 : r ∉ hostOps0_2_W) :
    afterA V (Proc.devRef .tc r) = V (Proc.devRef .tc r) :=
  (StableHlo.after_of_writes_sub hostOps0_2 _ hostOps0_2_writes h2).trans ((StableHlo.after_of_writes_sub hostOps0_1 _ hostOps0_1_writes h1).trans ((StableHlo.after_of_writes_sub hostOps0 _ hostOps0_writes h0)))

/-- The buffer contents after stretch B, from contents `V`. -/
abbrev afterB (V : Valuation τ sig (Elt Ideal)) : Valuation τ sig (Elt Ideal) := StableHlo.after hostOps1 (V)
/-- A buffer stretch B does not write keeps its contents. -/
theorem keepB (V : Valuation τ sig (Elt Ideal)) (r : Ref sig .tc) (h0 : r ∉ hostOps1_W) :
    afterB V (Proc.devRef .tc r) = V (Proc.devRef .tc r) :=
  (StableHlo.after_of_writes_sub hostOps1 _ hostOps1_writes h0)

/-- The buffer contents after stretch C, from contents `V`. -/
abbrev afterC (V : Valuation τ sig (Elt Ideal)) : Valuation τ sig (Elt Ideal) := StableHlo.after hostOps2_2 (StableHlo.after hostOps2_1 (StableHlo.after hostOps2 (V)))
/-- A buffer stretch C does not write keeps its contents. -/
theorem keepC (V : Valuation τ sig (Elt Ideal)) (r : Ref sig .tc) (h0 : r ∉ hostOps2_W) (h1 : r ∉ hostOps2_1_W) (h2 : r ∉ hostOps2_2_W) :
    afterC V (Proc.devRef .tc r) = V (Proc.devRef .tc r) :=
  (StableHlo.after_of_writes_sub hostOps2_2 _ hostOps2_2_writes h2).trans ((StableHlo.after_of_writes_sub hostOps2_1 _ hostOps2_1_writes h1).trans ((StableHlo.after_of_writes_sub hostOps2 _ hostOps2_writes h0)))

/-- The buffer contents after stretch D, from contents `V`. -/
abbrev afterD (V : Valuation τ sig (Elt Ideal)) : Valuation τ sig (Elt Ideal) := StableHlo.after hostOps3_2 (StableHlo.after hostOps3_1 (StableHlo.after hostOps3 (V)))
/-- A buffer stretch D does not write keeps its contents. -/
theorem keepD (V : Valuation τ sig (Elt Ideal)) (r : Ref sig .tc) (h0 : r ∉ hostOps3_W) (h1 : r ∉ hostOps3_1_W) (h2 : r ∉ hostOps3_2_W) :
    afterD V (Proc.devRef .tc r) = V (Proc.devRef .tc r) :=
  (StableHlo.after_of_writes_sub hostOps3_2 _ hostOps3_2_writes h2).trans ((StableHlo.after_of_writes_sub hostOps3_1 _ hostOps3_1_writes h1).trans ((StableHlo.after_of_writes_sub hostOps3 _ hostOps3_writes h0)))

/-- The buffer contents after stretch E, from contents `V`. -/
abbrev afterE (V : Valuation τ sig (Elt Ideal)) : Valuation τ sig (Elt Ideal) := StableHlo.after hostOps4_1 (StableHlo.after hostOps4 (V))
/-- A buffer stretch E does not write keeps its contents. -/
theorem keepE (V : Valuation τ sig (Elt Ideal)) (r : Ref sig .tc) (h0 : r ∉ hostOps4_W) (h1 : r ∉ hostOps4_1_W) :
    afterE V (Proc.devRef .tc r) = V (Proc.devRef .tc r) :=
  (StableHlo.after_of_writes_sub hostOps4_1 _ hostOps4_1_writes h1).trans ((StableHlo.after_of_writes_sub hostOps4 _ hostOps4_writes h0))

/-- The buffer contents after stretch T, from contents `V`. -/
abbrev afterT (V : Valuation τ sig (Elt Ideal)) : Valuation τ sig (Elt Ideal) := StableHlo.after hostOps5_2 (StableHlo.after hostOps5_1 (StableHlo.after hostOps5 (V)))
/-- A buffer stretch T does not write keeps its contents. -/
theorem keepT (V : Valuation τ sig (Elt Ideal)) (r : Ref sig .tc) (h0 : r ∉ hostOps5_W) (h1 : r ∉ hostOps5_1_W) (h2 : r ∉ hostOps5_2_W) :
    afterT V (Proc.devRef .tc r) = V (Proc.devRef .tc r) :=
  (StableHlo.after_of_writes_sub hostOps5_2 _ hostOps5_2_writes h2).trans ((StableHlo.after_of_writes_sub hostOps5_1 _ hostOps5_1_writes h1).trans ((StableHlo.after_of_writes_sub hostOps5 _ hostOps5_writes h0)))

/-! ## A called function's buffers: reading and writing them at their own types changes nothing -/
theorem to_main_cst_2 (X : (⟨S_, .f32⟩ : BufTy).Contents (Elt Ideal)) : (TRef.of (T := ⟨S_, .f32⟩) main_cst_2).toBuf X = X := rfl
theorem of_main_cst_2 (X : (main_cst_2 : Ref sig .tc).ty.Contents (Elt Ideal)) : (TRef.of (T := ⟨S_, .f32⟩) main_cst_2).ofBuf X = X := rfl
theorem to_main_call0_v0 (X : (⟨S_, .f32⟩ : BufTy).Contents (Elt Ideal)) : (TRef.of (T := ⟨S_, .f32⟩) main_call0_v0).toBuf X = X := rfl
theorem of_main_call0_v0 (X : (main_call0_v0 : Ref sig .tc).ty.Contents (Elt Ideal)) : (TRef.of (T := ⟨S_, .f32⟩) main_call0_v0).ofBuf X = X := rfl
theorem to_main_call0_v1 (X : (⟨S100000, .f32⟩ : BufTy).Contents (Elt Ideal)) : (TRef.of (T := ⟨S100000, .f32⟩) main_call0_v1).toBuf X = X := rfl
theorem of_main_call0_v1 (X : (main_call0_v1 : Ref sig .tc).ty.Contents (Elt Ideal)) : (TRef.of (T := ⟨S100000, .f32⟩) main_call0_v1).ofBuf X = X := rfl
theorem to_main_v12 (X : (⟨S100000, .i1⟩ : BufTy).Contents (Elt Ideal)) : (TRef.of (T := ⟨S100000, .i1⟩) main_v12).toBuf X = X := rfl
theorem of_main_v12 (X : (main_v12 : Ref sig .tc).ty.Contents (Elt Ideal)) : (TRef.of (T := ⟨S100000, .i1⟩) main_v12).ofBuf X = X := rfl
theorem to_main_v13 (X : (⟨S100000, .f32⟩ : BufTy).Contents (Elt Ideal)) : (TRef.of (T := ⟨S100000, .f32⟩) main_v13).toBuf X = X := rfl
theorem of_main_v13 (X : (main_v13 : Ref sig .tc).ty.Contents (Elt Ideal)) : (TRef.of (T := ⟨S100000, .f32⟩) main_v13).ofBuf X = X := rfl
theorem to_main_v14 (X : (⟨S100000, .f32⟩ : BufTy).Contents (Elt Ideal)) : (TRef.of (T := ⟨S100000, .f32⟩) main_v14).toBuf X = X := rfl
theorem of_main_v14 (X : (main_v14 : Ref sig .tc).ty.Contents (Elt Ideal)) : (TRef.of (T := ⟨S100000, .f32⟩) main_v14).ofBuf X = X := rfl
theorem to_main_call1_cst (X : (⟨S_, .f32⟩ : BufTy).Contents (Elt Ideal)) : (TRef.of (T := ⟨S_, .f32⟩) main_call1_cst).toBuf X = X := rfl
theorem of_main_call1_cst (X : (main_call1_cst : Ref sig .tc).ty.Contents (Elt Ideal)) : (TRef.of (T := ⟨S_, .f32⟩) main_call1_cst).ofBuf X = X := rfl
theorem to_main_call1_v0 (X : (⟨S100000x64, .f32⟩ : BufTy).Contents (Elt Ideal)) : (TRef.of (T := ⟨S100000x64, .f32⟩) main_call1_v0).toBuf X = X := rfl
theorem of_main_call1_v0 (X : (main_call1_v0 : Ref sig .tc).ty.Contents (Elt Ideal)) : (TRef.of (T := ⟨S100000x64, .f32⟩) main_call1_v0).ofBuf X = X := rfl
theorem to_main_call2_cst (X : (⟨S_, .f32⟩ : BufTy).Contents (Elt Ideal)) : (TRef.of (T := ⟨S_, .f32⟩) main_call2_cst).toBuf X = X := rfl
theorem of_main_call2_cst (X : (main_call2_cst : Ref sig .tc).ty.Contents (Elt Ideal)) : (TRef.of (T := ⟨S_, .f32⟩) main_call2_cst).ofBuf X = X := rfl
theorem to_main_call2_v0 (X : (⟨S100000x64, .f32⟩ : BufTy).Contents (Elt Ideal)) : (TRef.of (T := ⟨S100000x64, .f32⟩) main_call2_v0).toBuf X = X := rfl
theorem of_main_call2_v0 (X : (main_call2_v0 : Ref sig .tc).ty.Contents (Elt Ideal)) : (TRef.of (T := ⟨S100000x64, .f32⟩) main_call2_v0).ofBuf X = X := rfl
theorem to_main_call3_cst (X : (⟨S_, .f32⟩ : BufTy).Contents (Elt Ideal)) : (TRef.of (T := ⟨S_, .f32⟩) main_call3_cst).toBuf X = X := rfl
theorem of_main_call3_cst (X : (main_call3_cst : Ref sig .tc).ty.Contents (Elt Ideal)) : (TRef.of (T := ⟨S_, .f32⟩) main_call3_cst).ofBuf X = X := rfl
theorem to_main_call3_v0 (X : (⟨S100000x64, .f32⟩ : BufTy).Contents (Elt Ideal)) : (TRef.of (T := ⟨S100000x64, .f32⟩) main_call3_v0).toBuf X = X := rfl
theorem of_main_call3_v0 (X : (main_call3_v0 : Ref sig .tc).ty.Contents (Elt Ideal)) : (TRef.of (T := ⟨S100000x64, .f32⟩) main_call3_v0).ofBuf X = X := rfl
theorem to_main_v53 (X : (⟨S100000x64, .f32⟩ : BufTy).Contents (Elt Ideal)) : (TRef.of (T := ⟨S100000x64, .f32⟩) main_v53).toBuf X = X := rfl
theorem of_main_v53 (X : (main_v53 : Ref sig .tc).ty.Contents (Elt Ideal)) : (TRef.of (T := ⟨S100000x64, .f32⟩) main_v53).ofBuf X = X := rfl
theorem to_main_v54 (X : (⟨S100000x64, .f32⟩ : BufTy).Contents (Elt Ideal)) : (TRef.of (T := ⟨S100000x64, .f32⟩) main_v54).toBuf X = X := rfl
theorem of_main_v54 (X : (main_v54 : Ref sig .tc).ty.Contents (Elt Ideal)) : (TRef.of (T := ⟨S100000x64, .f32⟩) main_v54).ofBuf X = X := rfl
theorem to_main_v75 (X : (⟨S100000x64, .f32⟩ : BufTy).Contents (Elt Ideal)) : (TRef.of (T := ⟨S100000x64, .f32⟩) main_v75).toBuf X = X := rfl
theorem of_main_v75 (X : (main_v75 : Ref sig .tc).ty.Contents (Elt Ideal)) : (TRef.of (T := ⟨S100000x64, .f32⟩) main_v75).ofBuf X = X := rfl
theorem to_main_v76 (X : (⟨S100000x64, .f32⟩ : BufTy).Contents (Elt Ideal)) : (TRef.of (T := ⟨S100000x64, .f32⟩) main_v76).toBuf X = X := rfl
theorem of_main_v76 (X : (main_v76 : Ref sig .tc).ty.Contents (Elt Ideal)) : (TRef.of (T := ⟨S100000x64, .f32⟩) main_v76).ofBuf X = X := rfl
theorem to_main_v97 (X : (⟨S100000x64, .f32⟩ : BufTy).Contents (Elt Ideal)) : (TRef.of (T := ⟨S100000x64, .f32⟩) main_v97).toBuf X = X := rfl
theorem of_main_v97 (X : (main_v97 : Ref sig .tc).ty.Contents (Elt Ideal)) : (TRef.of (T := ⟨S100000x64, .f32⟩) main_v97).ofBuf X = X := rfl
theorem to_main_v98 (X : (⟨S100000x64, .f32⟩ : BufTy).Contents (Elt Ideal)) : (TRef.of (T := ⟨S100000x64, .f32⟩) main_v98).toBuf X = X := rfl
theorem of_main_v98 (X : (main_v98 : Ref sig .tc).ty.Contents (Elt Ideal)) : (TRef.of (T := ⟨S100000x64, .f32⟩) main_v98).ofBuf X = X := rfl
theorem to_main_call4_cst (X : (⟨S_, .f32⟩ : BufTy).Contents (Elt Ideal)) : (TRef.of (T := ⟨S_, .f32⟩) main_call4_cst).toBuf X = X := rfl
theorem of_main_call4_cst (X : (main_call4_cst : Ref sig .tc).ty.Contents (Elt Ideal)) : (TRef.of (T := ⟨S_, .f32⟩) main_call4_cst).ofBuf X = X := rfl
theorem to_main_call4_v0 (X : (⟨S1x32, .f32⟩ : BufTy).Contents (Elt Ideal)) : (TRef.of (T := ⟨S1x32, .f32⟩) main_call4_v0).toBuf X = X := rfl
theorem of_main_call4_v0 (X : (main_call4_v0 : Ref sig .tc).ty.Contents (Elt Ideal)) : (TRef.of (T := ⟨S1x32, .f32⟩) main_call4_v0).ofBuf X = X := rfl
theorem to_main_v104 (X : (⟨S1x32, .f32⟩ : BufTy).Contents (Elt Ideal)) : (TRef.of (T := ⟨S1x32, .f32⟩) main_v104).toBuf X = X := rfl
theorem of_main_v104 (X : (main_v104 : Ref sig .tc).ty.Contents (Elt Ideal)) : (TRef.of (T := ⟨S1x32, .f32⟩) main_v104).ofBuf X = X := rfl
theorem to_main_v105 (X : (⟨S1x32, .f32⟩ : BufTy).Contents (Elt Ideal)) : (TRef.of (T := ⟨S1x32, .f32⟩) main_v105).toBuf X = X := rfl
theorem of_main_v105 (X : (main_v105 : Ref sig .tc).ty.Contents (Elt Ideal)) : (TRef.of (T := ⟨S1x32, .f32⟩) main_v105).ofBuf X = X := rfl

end Cert.KernelIdeal.Host

end
-- ==== Proof.HostGraph.lean ====
/-
  The host's first stretch, before any launch: from the edge list it makes the source and target lists with the
  self-loops appended, the in-degree of every node, its inverse square root where the degree is positive (zero
  elsewhere), and the normalisation of every edge — the product of the two end nodes' factors. They are the reference's
  values of the same names of the same edge list. The stretch is read piece by piece — the two lists, the degrees, the
  guarded inverse square root, the normalisation — each piece from the buffers as the piece before left them.
-/
import proofs.«117915_j33311766347862_1_alg».proof.Proof.HostKeep
import proofs.«117915_j33311766347862_1_alg».proof.Proof.RefReadP

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

/-- The first seven operations: the two node lists. -/
abbrev opsLists : List (HloOp τ sig (Elt Ideal)) := hostOps0.take 7
/-- The rest of the first list of operations: the degrees. -/
abbrev opsDegree : List (HloOp τ sig (Elt Ideal)) := hostOps0.drop 7

abbrev opsDegree_W : List (Ref sig .tc) := [main_cst, main_v7, main_cst_0, main_v8, main_v9, main_v10, main_cst_1, main_v11, main_v12, main_v13, main_cst_2]
theorem opsDegree_writes : (opsDegree : List (HloOp τ sig (Elt Ideal))).Forall fun op => op.writes ⊆ (opsDegree_W.map (Proc.devRef (τ := τ) .tc)).toFinset := by
  simp only [opsDegree, hostOps0, List.drop_succ_cons, List.drop_zero, List.Forall, StableHlo.nullary_writes, StableHlo.unary_writes, StableHlo.binary_writes, StableHlo.ternary_writes,
    StableHlo.reshape_writes, Finset.singleton_subset_iff, List.mem_toFinset]
  repeat' apply And.intro
  all_goals exact List.mem_map_of_mem (by decide)

theorem afterA_split (V : Valuation τ sig (Elt Ideal)) :
    afterA V = StableHlo.after hostOps0_2 (StableHlo.after hostOps0_1 (StableHlo.after opsDegree (StableHlo.after opsLists V))) := rfl

/-- The source list with the self-loops, right after it is made. -/
theorem lists_rows (V : Valuation τ sig (Elt Ideal)) :
    StableHlo.after opsLists V (Proc.devRef .tc main_v5) = Cert.ReferenceIdeal.ReadP.val_main_v5 (V (Proc.devRef .tc main_arg2)) := by
  simp only [opsLists, hostOps0, List.take_succ_cons, List.take_zero]
  after_results_simp
  rfl

/-- The target list with the self-loops, right after it is made. -/
theorem lists_cols (V : Valuation τ sig (Elt Ideal)) :
    StableHlo.after opsLists V (Proc.devRef .tc main_v6) = Cert.ReferenceIdeal.ReadP.val_main_v6 (V (Proc.devRef .tc main_arg2)) := by
  simp only [opsLists, hostOps0, List.take_succ_cons, List.take_zero]
  after_results_simp
  rfl

/-- Which nodes have a positive in-degree (counted over the target list, self-loops included). -/
theorem degree_positive (V : Valuation τ sig (Elt Ideal)) (x2 : (⟨Cert.ReferenceIdeal.S2x1600000, .i32⟩ : BufTy).Contents (Elt Ideal))
    (h6 : V (Proc.devRef .tc main_v6) = Cert.ReferenceIdeal.ReadP.val_main_v6 x2) :
    StableHlo.after opsDegree V (Proc.devRef .tc main_v12) = Cert.ReferenceIdeal.ReadP.val_main_v12 x2 := by
  simp only [opsDegree, hostOps0, List.drop_succ_cons, List.drop_zero]
  after_results_simp
  rw [h6]
  rfl

/-- The inverse square root of every node's in-degree. -/
theorem degree_rsqrt (V : Valuation τ sig (Elt Ideal)) (x2 : (⟨Cert.ReferenceIdeal.S2x1600000, .i32⟩ : BufTy).Contents (Elt Ideal))
    (h6 : V (Proc.devRef .tc main_v6) = Cert.ReferenceIdeal.ReadP.val_main_v6 x2) :
    StableHlo.after opsDegree V (Proc.devRef .tc main_v13) = Cert.ReferenceIdeal.ReadP.val_main_v13 x2 := by
  simp only [opsDegree, hostOps0, List.drop_succ_cons, List.drop_zero]
  after_results_simp
  rw [h6]
  rfl

/-- The zero the guard puts where the degree is not positive. -/
theorem degree_zero (V : Valuation τ sig (Elt Ideal))
     :
    StableHlo.after opsDegree V (Proc.devRef .tc main_cst_2) = Cert.ReferenceIdeal.ReadP.val_main_cst_2 (F := Ideal) := by
  simp only [opsDegree, hostOps0, List.drop_succ_cons, List.drop_zero]
  after_results_simp
  rfl

/-- The guarded factor of every node: the inverse square root of its degree where that is positive, zero elsewhere. -/
theorem guarded_rsqrt (V : Valuation τ sig (Elt Ideal)) (x2 : (⟨Cert.ReferenceIdeal.S2x1600000, .i32⟩ : BufTy).Contents (Elt Ideal))
    (h12 : V (Proc.devRef .tc main_v12) = Cert.ReferenceIdeal.ReadP.val_main_v12 x2)
    (h13 : V (Proc.devRef .tc main_v13) = Cert.ReferenceIdeal.ReadP.val_main_v13 x2)
    (hc : V (Proc.devRef .tc main_cst_2) = Cert.ReferenceIdeal.ReadP.val_main_cst_2 (F := Ideal)) :
    StableHlo.after hostOps0_1 V (Proc.devRef .tc main_v14) = Cert.ReferenceIdeal.ReadP.val_main_v14 x2 := by
  dsimp only [hostOps0_1]
  after_results_simp
  simp only [to_main_cst_2, of_main_cst_2, to_main_call0_v0, of_main_call0_v0, to_main_call0_v1, of_main_call0_v1, to_main_v12, of_main_v12, to_main_v13, of_main_v13, to_main_v14, of_main_v14]
  rw [h12, h13, hc]
  rfl

/-- Every edge's normalisation: the product of its two end nodes' factors, the node indices wrapped where negative. -/
theorem edge_norm (V : Valuation τ sig (Elt Ideal)) (x2 : (⟨Cert.ReferenceIdeal.S2x1600000, .i32⟩ : BufTy).Contents (Elt Ideal))
    (h14 : V (Proc.devRef .tc main_v14) = Cert.ReferenceIdeal.ReadP.val_main_v14 x2)
    (h5 : V (Proc.devRef .tc main_v5) = Cert.ReferenceIdeal.ReadP.val_main_v5 x2)
    (h6 : V (Proc.devRef .tc main_v6) = Cert.ReferenceIdeal.ReadP.val_main_v6 x2) :
    StableHlo.after hostOps0_2 V (Proc.devRef .tc main_v29) = Cert.ReferenceIdeal.ReadP.val_main_v29 x2 := by
  dsimp only [hostOps0_2]
  after_results_simp
  rw [h14, h5, h6]
  rfl

/-- The source list at the first launch's entry. -/
theorem A_rows (V : Valuation τ sig (Elt Ideal)) :
    afterA V (Proc.devRef .tc main_v5) = Cert.ReferenceIdeal.ReadP.val_main_v5 (V (Proc.devRef .tc main_arg2)) :=
  (congrFun (afterA_split V) _).trans ((StableHlo.after_of_writes_sub hostOps0_2 _ hostOps0_2_writes (r := main_v5) (by decide)).trans ((StableHlo.after_of_writes_sub hostOps0_1 _ hostOps0_1_writes (r := main_v5) (by decide)).trans
    ((StableHlo.after_of_writes_sub opsDegree _ opsDegree_writes (r := main_v5) (by decide)).trans (lists_rows V))))

/-- The target list at the first launch's entry. -/
theorem A_cols (V : Valuation τ sig (Elt Ideal)) :
    afterA V (Proc.devRef .tc main_v6) = Cert.ReferenceIdeal.ReadP.val_main_v6 (V (Proc.devRef .tc main_arg2)) :=
  (congrFun (afterA_split V) _).trans ((StableHlo.after_of_writes_sub hostOps0_2 _ hostOps0_2_writes (r := main_v6) (by decide)).trans ((StableHlo.after_of_writes_sub hostOps0_1 _ hostOps0_1_writes (r := main_v6) (by decide)).trans
    ((StableHlo.after_of_writes_sub opsDegree _ opsDegree_writes (r := main_v6) (by decide)).trans (lists_cols V))))

/-- The edge normalisation at the first launch's entry. -/
theorem A_norm (V : Valuation τ sig (Elt Ideal)) :
    afterA V (Proc.devRef .tc main_v29) = Cert.ReferenceIdeal.ReadP.val_main_v29 (V (Proc.devRef .tc main_arg2)) := by
  have e5 := lists_rows V
  have e6 := lists_cols V
  generalize V (Proc.devRef .tc main_arg2) = x2 at e5 e6 ⊢
  rw [afterA_split]
  generalize StableHlo.after opsLists V = V1 at e5 e6 ⊢
  have d12 := degree_positive V1 x2 e6
  have d13 := degree_rsqrt V1 x2 e6
  have dc := degree_zero V1
  have k5 : StableHlo.after opsDegree V1 (Proc.devRef .tc main_v5) = _ := (StableHlo.after_of_writes_sub opsDegree V1 opsDegree_writes (r := main_v5) (by decide)).trans e5
  have k6 : StableHlo.after opsDegree V1 (Proc.devRef .tc main_v6) = _ := (StableHlo.after_of_writes_sub opsDegree V1 opsDegree_writes (r := main_v6) (by decide)).trans e6
  generalize StableHlo.after opsDegree V1 = V2 at d12 d13 dc k5 k6 ⊢
  have g14 := guarded_rsqrt V2 x2 d12 d13 dc
  have l5 : StableHlo.after hostOps0_1 V2 (Proc.devRef .tc main_v5) = _ := (StableHlo.after_of_writes_sub hostOps0_1 V2 hostOps0_1_writes (r := main_v5) (by decide)).trans k5
  have l6 : StableHlo.after hostOps0_1 V2 (Proc.devRef .tc main_v6) = _ := (StableHlo.after_of_writes_sub hostOps0_1 V2 hostOps0_1_writes (r := main_v6) (by decide)).trans k6
  generalize StableHlo.after hostOps0_1 V2 = V3 at g14 l5 l6 ⊢
  exact edge_norm V3 x2 g14 l5 l6

/-- The encoder's bias as a one-row matrix. -/
theorem A_bias (V : Valuation τ sig (Elt Ideal)) :
    afterA V (Proc.devRef .tc main_v30) = shapeCast S1x64 (V (Proc.devRef .tc main_arg4)) shapeCasts_S64_S1x64 := by
  dsimp only [afterA, hostOps0, hostOps0_1, hostOps0_2]
  after_results_simp
  rfl

end Cert.KernelIdeal.Host

end
-- ==== Proof.HostLayers.lean ====
/-
  The host's stretches after the first launch: cutting a layer's weight matrix out of the stack, the all-zero bias
  row, and, on a launch's product, the layer's message passing — gather the product's rows along the edges, scale by
  the edge normalisation, scatter-add onto the target nodes, add the layer's bias, clamp at zero — and last the closing
  head on the pooled row. Each is the reference's value of the same name of the same inputs: the operations are the
  same, one by one. Each stretch is read piece by piece, a piece from the buffers as the piece before left them.
-/
import proofs.«117915_j33311766347862_1_alg».proof.Proof.HostKeep
import proofs.«117915_j33311766347862_1_alg».proof.Proof.RefReadP

set_option maxRecDepth 16384

noncomputable section

open Idealize.ShloMosaic Idealize.ShloMosaic.TcCoe Idealize.SL.Sem Idealize.ShloMosaic.StableHlo

namespace Cert.KernelIdeal.Host

open Cert.KernelIdeal Cert.KernelIdeal.Gen

/-- The all-zero bias row of the three inner layers. -/
theorem B_zero (V : Valuation τ sig (Elt Ideal))
     :
    afterB V (Proc.devRef .tc main_v32) = broadcastInDim S1x64 ![] bcast_S_S1x64 (constant (F := Ideal) S_ .f32 0x00000000#32) := by
  dsimp only [afterB, hostOps1]
  after_results_simp
  all_goals rfl

/-- The first layer's weight matrix, cut out of the stack. -/
theorem B_weights (V : Valuation τ sig (Elt Ideal)) (x7 : (⟨Cert.ReferenceIdeal.S3x64x64, .f32⟩ : BufTy).Contents (Elt Ideal))
    (h7 : V (Proc.devRef .tc main_arg7) = x7) :
    afterB V (Proc.devRef .tc main_v34) = Cert.ReferenceIdeal.ReadP.val_main_v39 x7 := by
  dsimp only [afterB, hostOps1]
  after_results_simp
  rw [h7]
  rfl

/-- The first layer's message passing before the clamp: the launch's product gathered along the edges, scaled by the edge normalisation, scatter-added onto the target nodes, plus the layer's bias. -/
theorem first_sum (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v35) = Cert.ReferenceIdeal.ReadP.val_main_v40 x0 x3 x4 x7)
    (h5 : V (Proc.devRef .tc main_v5) = Cert.ReferenceIdeal.ReadP.val_main_v5 x2)
    (h6 : V (Proc.devRef .tc main_v6) = Cert.ReferenceIdeal.ReadP.val_main_v6 x2)
    (h29 : V (Proc.devRef .tc main_v29) = Cert.ReferenceIdeal.ReadP.val_main_v29 x2)
    (h8 : V (Proc.devRef .tc main_arg8) = x8) :
    StableHlo.after hostOps2 V (Proc.devRef .tc main_v53) = Cert.ReferenceIdeal.ReadP.val_main_v58 x0 x2 x3 x4 x7 x8 := by
  dsimp only [hostOps2]
  after_results_simp
  rw [hw, h5, h6, h29, h8]
  rfl

/-- The clamp at zero that closes the first layer. -/
theorem first_clamp (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hs : V (Proc.devRef .tc main_v53) = Cert.ReferenceIdeal.ReadP.val_main_v58 x0 x2 x3 x4 x7 x8) :
    StableHlo.after hostOps2_1 V (Proc.devRef .tc main_v54) = Cert.ReferenceIdeal.ReadP.val_main_v59 x0 x2 x3 x4 x7 x8 := by
  dsimp only [hostOps2_1]
  after_results_simp
  simp only [to_main_call1_cst, of_main_call1_cst, to_main_call1_v0, of_main_call1_v0, to_main_v53, of_main_v53, to_main_v54, of_main_v54]
  rw [hs]
  rfl

/-- The next layer's weight matrix, cut out of the stack. -/
theorem first_next_weights (V : Valuation τ sig (Elt Ideal)) (x7 : (⟨Cert.ReferenceIdeal.S3x64x64, .f32⟩ : BufTy).Contents (Elt Ideal))
    (h7 : V (Proc.devRef .tc main_arg7) = x7) :
    StableHlo.after hostOps2_2 V (Proc.devRef .tc main_v56) = Cert.ReferenceIdeal.ReadP.val_main_v61 x7 := by
  dsimp only [hostOps2_2]
  after_results_simp
  rw [h7]
  rfl

/-- The first layer's output at the next launch's entry. -/
theorem C_layer (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v35) = Cert.ReferenceIdeal.ReadP.val_main_v40 x0 x3 x4 x7)
    (h5 : V (Proc.devRef .tc main_v5) = Cert.ReferenceIdeal.ReadP.val_main_v5 x2) (h6 : V (Proc.devRef .tc main_v6) = Cert.ReferenceIdeal.ReadP.val_main_v6 x2)
    (h29 : V (Proc.devRef .tc main_v29) = Cert.ReferenceIdeal.ReadP.val_main_v29 x2) (h8 : V (Proc.devRef .tc main_arg8) = x8) :
    afterC V (Proc.devRef .tc main_v54) = Cert.ReferenceIdeal.ReadP.val_main_v59 x0 x2 x3 x4 x7 x8 :=
  (StableHlo.after_of_writes_sub hostOps2_2 _ hostOps2_2_writes (r := main_v54) (by decide)).trans (first_clamp (StableHlo.after hostOps2 V) x0 x2 x3 x4 x7 x8 (first_sum V x0 x2 x3 x4 x7 x8 hw h5 h6 h29 h8))

/-- The next layer's weight matrix at the next launch's entry. -/
theorem C_weights (V : Valuation τ sig (Elt Ideal)) (x7 : (⟨Cert.ReferenceIdeal.S3x64x64, .f32⟩ : BufTy).Contents (Elt Ideal)) (h7 : V (Proc.devRef .tc main_arg7) = x7) :
    afterC V (Proc.devRef .tc main_v56) = Cert.ReferenceIdeal.ReadP.val_main_v61 x7 :=
  first_next_weights (StableHlo.after hostOps2_1 (StableHlo.after hostOps2 V)) x7 ((StableHlo.after_of_writes_sub hostOps2_1 _ hostOps2_1_writes (r := main_arg7) (by decide)).trans ((StableHlo.after_of_writes_sub hostOps2 _ hostOps2_writes (r := main_arg7) (by decide)).trans h7))

/-- The second layer's message passing before the clamp: the launch's product gathered along the edges, scaled by the edge normalisation, scatter-added onto the target nodes, plus the layer's bias. -/
theorem second_sum (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v57) = Cert.ReferenceIdeal.ReadP.val_main_v62 x0 x2 x3 x4 x7 x8)
    (h5 : V (Proc.devRef .tc main_v5) = Cert.ReferenceIdeal.ReadP.val_main_v5 x2)
    (h6 : V (Proc.devRef .tc main_v6) = Cert.ReferenceIdeal.ReadP.val_main_v6 x2)
    (h29 : V (Proc.devRef .tc main_v29) = Cert.ReferenceIdeal.ReadP.val_main_v29 x2)
    (h8 : V (Proc.devRef .tc main_arg8) = x8) :
    StableHlo.after hostOps3 V (Proc.devRef .tc main_v75) = Cert.ReferenceIdeal.ReadP.val_main_v80 x0 x2 x3 x4 x7 x8 := by
  dsimp only [hostOps3]
  after_results_simp
  rw [hw, h5, h6, h29, h8]
  rfl

/-- The clamp at zero that closes the second layer. -/
theorem second_clamp (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hs : V (Proc.devRef .tc main_v75) = Cert.ReferenceIdeal.ReadP.val_main_v80 x0 x2 x3 x4 x7 x8) :
    StableHlo.after hostOps3_1 V (Proc.devRef .tc main_v76) = Cert.ReferenceIdeal.ReadP.val_main_v81 x0 x2 x3 x4 x7 x8 := by
  dsimp only [hostOps3_1]
  after_results_simp
  simp only [to_main_call2_cst, of_main_call2_cst, to_main_call2_v0, of_main_call2_v0, to_main_v75, of_main_v75, to_main_v76, of_main_v76]
  rw [hs]
  rfl

/-- The next layer's weight matrix, cut out of the stack. -/
theorem second_next_weights (V : Valuation τ sig (Elt Ideal)) (x7 : (⟨Cert.ReferenceIdeal.S3x64x64, .f32⟩ : BufTy).Contents (Elt Ideal))
    (h7 : V (Proc.devRef .tc main_arg7) = x7) :
    StableHlo.after hostOps3_2 V (Proc.devRef .tc main_v78) = Cert.ReferenceIdeal.ReadP.val_main_v83 x7 := by
  dsimp only [hostOps3_2]
  after_results_simp
  rw [h7]
  rfl

/-- The second layer's output at the next launch's entry. -/
theorem D_layer (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v57) = Cert.ReferenceIdeal.ReadP.val_main_v62 x0 x2 x3 x4 x7 x8)
    (h5 : V (Proc.devRef .tc main_v5) = Cert.ReferenceIdeal.ReadP.val_main_v5 x2) (h6 : V (Proc.devRef .tc main_v6) = Cert.ReferenceIdeal.ReadP.val_main_v6 x2)
    (h29 : V (Proc.devRef .tc main_v29) = Cert.ReferenceIdeal.ReadP.val_main_v29 x2) (h8 : V (Proc.devRef .tc main_arg8) = x8) :
    afterD V (Proc.devRef .tc main_v76) = Cert.ReferenceIdeal.ReadP.val_main_v81 x0 x2 x3 x4 x7 x8 :=
  (StableHlo.after_of_writes_sub hostOps3_2 _ hostOps3_2_writes (r := main_v76) (by decide)).trans (second_clamp (StableHlo.after hostOps3 V) x0 x2 x3 x4 x7 x8 (second_sum V x0 x2 x3 x4 x7 x8 hw h5 h6 h29 h8))

/-- The next layer's weight matrix at the next launch's entry. -/
theorem D_weights (V : Valuation τ sig (Elt Ideal)) (x7 : (⟨Cert.ReferenceIdeal.S3x64x64, .f32⟩ : BufTy).Contents (Elt Ideal)) (h7 : V (Proc.devRef .tc main_arg7) = x7) :
    afterD V (Proc.devRef .tc main_v78) = Cert.ReferenceIdeal.ReadP.val_main_v83 x7 :=
  second_next_weights (StableHlo.after hostOps3_1 (StableHlo.after hostOps3 V)) x7 ((StableHlo.after_of_writes_sub hostOps3_1 _ hostOps3_1_writes (r := main_arg7) (by decide)).trans ((StableHlo.after_of_writes_sub hostOps3 _ hostOps3_writes (r := main_arg7) (by decide)).trans h7))

/-- The third layer's message passing before the clamp: the launch's product gathered along the edges, scaled by the edge normalisation, scatter-added onto the target nodes, plus the layer's bias. -/
theorem third_sum (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v79) = Cert.ReferenceIdeal.ReadP.val_main_v84 x0 x2 x3 x4 x7 x8)
    (h5 : V (Proc.devRef .tc main_v5) = Cert.ReferenceIdeal.ReadP.val_main_v5 x2)
    (h6 : V (Proc.devRef .tc main_v6) = Cert.ReferenceIdeal.ReadP.val_main_v6 x2)
    (h29 : V (Proc.devRef .tc main_v29) = Cert.ReferenceIdeal.ReadP.val_main_v29 x2)
    (h8 : V (Proc.devRef .tc main_arg8) = x8) :
    StableHlo.after hostOps4 V (Proc.devRef .tc main_v97) = Cert.ReferenceIdeal.ReadP.val_main_v102 x0 x2 x3 x4 x7 x8 := by
  dsimp only [hostOps4]
  after_results_simp
  rw [hw, h5, h6, h29, h8]
  rfl

/-- The clamp at zero that closes the third layer. -/
theorem third_clamp (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hs : V (Proc.devRef .tc main_v97) = Cert.ReferenceIdeal.ReadP.val_main_v102 x0 x2 x3 x4 x7 x8) :
    StableHlo.after hostOps4_1 V (Proc.devRef .tc main_v98) = Cert.ReferenceIdeal.ReadP.val_main_v103 x0 x2 x3 x4 x7 x8 := by
  dsimp only [hostOps4_1]
  after_results_simp
  simp only [to_main_call3_cst, of_main_call3_cst, to_main_call3_v0, of_main_call3_v0, to_main_v97, of_main_v97, to_main_v98, of_main_v98]
  rw [hs]
  rfl

/-- The third layer's output at the next launch's entry. -/
theorem E_layer (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal))
    (hw : V (Proc.devRef .tc main_v79) = Cert.ReferenceIdeal.ReadP.val_main_v84 x0 x2 x3 x4 x7 x8)
    (h5 : V (Proc.devRef .tc main_v5) = Cert.ReferenceIdeal.ReadP.val_main_v5 x2) (h6 : V (Proc.devRef .tc main_v6) = Cert.ReferenceIdeal.ReadP.val_main_v6 x2)
    (h29 : V (Proc.devRef .tc main_v29) = Cert.ReferenceIdeal.ReadP.val_main_v29 x2) (h8 : V (Proc.devRef .tc main_arg8) = x8) :
    afterE V (Proc.devRef .tc main_v98) = Cert.ReferenceIdeal.ReadP.val_main_v103 x0 x2 x3 x4 x7 x8 :=
  (third_clamp (StableHlo.after hostOps4 V) x0 x2 x3 x4 x7 x8 (third_sum V x0 x2 x3 x4 x7 x8 hw h5 h6 h29 h8))

/-- The head's hidden step before the clamp: the pooled row over the node count, times the first head matrix, plus its bias. -/
theorem head_hidden_sum (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal))
    (hp : V (Proc.devRef .tc main_v99) = Cert.ReferenceIdeal.ReadP.val_main_v105 x0 x2 x3 x4 x7 x8)
    (h9 : V (Proc.devRef .tc main_arg9) = x9)
    (h10 : V (Proc.devRef .tc main_arg10) = x10) :
    StableHlo.after hostOps5 V (Proc.devRef .tc main_v104) = Cert.ReferenceIdeal.ReadP.val_main_v110 x0 x2 x3 x4 x7 x8 x9 x10 := by
  dsimp only [hostOps5]
  after_results_simp
  rw [hp, h9, h10]
  rfl

/-- The clamp at zero of the head's hidden step. -/
theorem head_hidden (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal))
    (hs : V (Proc.devRef .tc main_v104) = Cert.ReferenceIdeal.ReadP.val_main_v110 x0 x2 x3 x4 x7 x8 x9 x10) :
    StableHlo.after hostOps5_1 V (Proc.devRef .tc main_v105) = Cert.ReferenceIdeal.ReadP.val_main_v111 x0 x2 x3 x4 x7 x8 x9 x10 := by
  dsimp only [hostOps5_1]
  after_results_simp
  simp only [to_main_call4_cst, of_main_call4_cst, to_main_call4_v0, of_main_call4_v0, to_main_v104, of_main_v104, to_main_v105, of_main_v105]
  rw [hs]
  rfl

/-- The head's last step: the hidden row times the second head matrix, plus its bias. -/
theorem head_out (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) (x11 : (⟨Cert.ReferenceIdeal.S32x1, .f32⟩ : BufTy).Contents (Elt Ideal)) (x12 : (⟨Cert.ReferenceIdeal.S1, .f32⟩ : BufTy).Contents (Elt Ideal))
    (hh : V (Proc.devRef .tc main_v105) = Cert.ReferenceIdeal.ReadP.val_main_v111 x0 x2 x3 x4 x7 x8 x9 x10)
    (h11 : V (Proc.devRef .tc main_arg11) = x11)
    (h12 : V (Proc.devRef .tc main_arg12) = x12) :
    StableHlo.after hostOps5_2 V (Proc.devRef .tc main_v108) = Cert.ReferenceIdeal.ReadP.val_main_v114 x0 x2 x3 x4 x7 x8 x9 x10 x11 x12 := by
  dsimp only [hostOps5_2]
  after_results_simp
  rw [hh, h11, h12]
  rfl

/-- The closing head on the pooled row: the mean, two dense steps and a clamp between them. -/
theorem T_head (V : Valuation τ sig (Elt Ideal)) (x0 : (⟨Cert.ReferenceIdeal.S100000x32, .f32⟩ : BufTy).Contents (Elt Ideal)) (x2 : (⟨Cert.ReferenceIdeal.S2x1600000, .i32⟩ : BufTy).Contents (Elt Ideal)) (x3 : (⟨Cert.ReferenceIdeal.S32x64, .f32⟩ : BufTy).Contents (Elt Ideal)) (x4 : (⟨Cert.ReferenceIdeal.S64, .f32⟩ : BufTy).Contents (Elt Ideal)) (x7 : (⟨Cert.ReferenceIdeal.S3x64x64, .f32⟩ : BufTy).Contents (Elt Ideal)) (x8 : (⟨Cert.ReferenceIdeal.S3x64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal)) (x11 : (⟨Cert.ReferenceIdeal.S32x1, .f32⟩ : BufTy).Contents (Elt Ideal)) (x12 : (⟨Cert.ReferenceIdeal.S1, .f32⟩ : BufTy).Contents (Elt Ideal))
    (hp : V (Proc.devRef .tc main_v99) = Cert.ReferenceIdeal.ReadP.val_main_v105 x0 x2 x3 x4 x7 x8)
    (h9 : V (Proc.devRef .tc main_arg9) = x9) (h10 : V (Proc.devRef .tc main_arg10) = x10) (h11 : V (Proc.devRef .tc main_arg11) = x11) (h12 : V (Proc.devRef .tc main_arg12) = x12) :
    afterT V (Proc.devRef .tc main_v108) = Cert.ReferenceIdeal.ReadP.val_main_v114 x0 x2 x3 x4 x7 x8 x9 x10 x11 x12 :=
  head_out (StableHlo.after hostOps5_1 (StableHlo.after hostOps5 V)) x0 x2 x3 x4 x7 x8 x9 x10 x11 x12
    (head_hidden (StableHlo.after hostOps5 V) x0 x2 x3 x4 x7 x8 x9 x10 (head_hidden_sum V x0 x2 x3 x4 x7 x8 x9 x10 hp h9 h10))
    ((StableHlo.after_of_writes_sub hostOps5_1 _ hostOps5_1_writes (r := main_arg11) (by decide)).trans ((StableHlo.after_of_writes_sub hostOps5 _ hostOps5_writes (r := main_arg11) (by decide)).trans h11))
    ((StableHlo.after_of_writes_sub hostOps5_1 _ hostOps5_1_writes (r := main_arg12) (by decide)).trans ((StableHlo.after_of_writes_sub hostOps5 _ hostOps5_writes (r := main_arg12) (by decide)).trans h12))

end Cert.KernelIdeal.Host

end
-- ==== Proof.LibMatmul.lean ====
/-
  A matrix product of an [M, K] matrix by a [K, N] matrix into a zero accumulator, read at an entry at any sizes: entry
  (p, q) is the sum over k of the left operand's (p, k) entry times the right operand's (k, q) entry.
-/
import Idealize.ShloMosaic.PureOps.Ideal.Laws
import Idealize.ShloMosaic.Lib.ValueIdx

noncomputable section

namespace Cert.LibMatmul

open Idealize.ShloMosaic Idealize.ShloMosaic.ValueIdx

/-- The dimension numbers of the plain product — contract the left operand's axis 1 with the right operand's axis 0, no
    batch axes — under any proof of their conditions. -/
abbrev plainDims (M K N : Nat) (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

theorem contr_rank : (plainDims M K N wf).contr.rank = 1 := rfl
theorem contr_size : (plainDims M K N wf).contr.size ⟨0, by rw [contr_rank]; exact Nat.one_pos⟩ = K := rfl

/-- The left operand's index at output (p, q) and contraction position k is (p, k). -/
theorem lhsIdx_eq (p : Fin M) (q : Fin N) (k : Fin K) :
    (plainDims M K N wf).lhsIdx (ix2 p q) ((contrEquiv1 (plainDims M K N wf) K (contr_rank wf) (contr_size wf)).symm k) = ix2 p k := by
  funext a
  apply Fin.ext
  match a with
  | ⟨0, _⟩ =>
    show ((plainDims M K N wf).lhsIdx (ix2 p q) _ (0 : Fin 2)).val = p.val
    unfold DotDims.lhsIdx
    simp
    rfl
  | ⟨1, _⟩ =>
    refine ((plainDims M K N wf).lhsIdx_val_of_single (cl := (1 : Fin 2)) rfl _ _).trans ?_
    exact contrEquiv1_symm_val _ K (contr_rank wf) (contr_size wf) k

/-- The right operand's index at output (p, q) and contraction position k is (k, q). -/
theorem rhsIdx_eq (p : Fin M) (q : Fin N) (k : Fin K) :
    (plainDims M K N wf).rhsIdx (ix2 p q) ((contrEquiv1 (plainDims M K N wf) K (contr_rank wf) (contr_size wf)).symm k) = ix2 k q := by
  funext a
  apply Fin.ext
  match a with
  | ⟨0, _⟩ =>
    refine ((plainDims M K N wf).rhsIdx_val_of_single (cr := (0 : Fin 2)) rfl _ _).trans ?_
    exact contrEquiv1_symm_val _ K (contr_rank wf) (contr_size wf) k
  | ⟨1, _⟩ =>
    show ((plainDims M K N wf).rhsIdx (ix2 p q) _ (1 : Fin 2)).val = q.val
    unfold DotDims.rhsIdx
    simp
    rfl

/-- THE PRODUCT READ AT (p, q): the sum over the contracted axis of the operands' entries multiplied. -/
theorem matmul_plain_apply {φ₁ φ₂ : FTy} (prec : Option ContractPrecision)
    (lhs : FVec Ideal ⟨2, ![M, K]⟩ φ₁) (rhs : FVec Ideal ⟨2, ![K, N]⟩ φ₂) (p : Fin M) (q : Fin N) :
    matmul (plainDims M K N wf) prec lhs rhs (constant ⟨2, ![M, N]⟩ .f32 0x00000000#32) (ix2 p q)
      = ∑ k : Fin K, lhs (ix2 p k) * rhs (ix2 k q) := by
  refine (Ideal.matmul_constant_zero_apply (plainDims M K N wf) prec lhs rhs (ix2 p q)).trans ?_
  rw [← Equiv.sum_comp (contrEquiv1 (plainDims M K N wf) K (contr_rank wf) (contr_size wf)).symm]
  refine Finset.sum_congr rfl fun k _ => ?_
  rw [lhsIdx_eq, rhsIdx_eq]

end Cert.LibMatmul

end
-- ==== Proof.DensePay.lean ====
/-
  The body of the dense-layer kernel read at an entry. Each of the four launches of that kernel computes, on one block
  of 5000 rows, the block times the weight matrix plus the bias row: entry (p, q) is  Σ_k x (p, k) · w (k, q) + b q.
-/
import proofs.«117915_j33311766347862_1_alg».proof.Proof.Gen.KernelIdeal.Skeleton
import proofs.«117915_j33311766347862_1_alg».proof.Proof.LibMatmul
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-- The whole-array function of a dense layer: entry (p, q) ↦ Σ_k x (p, k) · w (k, q) + b q, with the bias kept as a
    one-row matrix. -/
def affine {M K N : Nat} (x : FVec Ideal ⟨2, ![M, K]⟩ .f32) (w : FVec Ideal ⟨2, ![K, N]⟩ .f32) (b : FVec Ideal ⟨2, ![1, N]⟩ .f32) :
    FVec Ideal ⟨2, ![M, N]⟩ .f32 :=
  fun i => (∑ k : Fin K, x (ix2 (n0 := M) (i 0) k) * w (ix2 (n1 := N) k (i 1))) + b (ix2 (n1 := N) (0 : Fin 1) (i 1))

theorem affine_apply {M K N : Nat} (x : FVec Ideal ⟨2, ![M, K]⟩ .f32) (w : FVec Ideal ⟨2, ![K, N]⟩ .f32) (b : FVec Ideal ⟨2, ![1, N]⟩ .f32)
    (p : Fin M) (q : Fin N) : affine x w b (ix2 p q) = (∑ k : Fin K, x (ix2 p k) * w (ix2 k q)) + b (ix2 (0 : Fin 1) q) := rfl

/-- One block of launch 0: entry (p, q) of what the body stores is the row p of its input block times the column q of
    the weights, plus the bias row's entry q. (The two roundings on the way into the product are the identity on the
    extended reals, and the product starts from a zero accumulator.) -/
theorem pay0_apply (x : Vec Ideal S5000x32 .f32) (w : Vec Ideal S32x64 .f32) (b : Vec Ideal S1x64 .f32) (p : Fin 5000) (q : Fin 64) :
    k0_pay1 (F := Ideal) x w b (ix2 p q) = (∑ k : Fin 32, x (ix2 p k) * w (ix2 k q)) + b (ix2 (0 : Fin 1) q) := by
  unfold k0_pay1
  show (matmul (F := Ideal) dot_S5000x32_S32x64_S5000x64_1_0_0_1_n_n none (truncf .bf16 x bitsLt_bf16_f32)
        (truncf .bf16 w bitsLt_bf16_f32) (constant S5000x64 .f32 0x00000000#32)) (ix2 p q)
      + (broadcastTo S5000x64 (shapeCast S1x64 b shapeCasts_S1x64_S1x64) broadcasts_S1x64_S5000x64) (ix2 p q) = _
  rw [shapeCast_self]
  refine congrArg₂ (· + ·) ?_ ?_
  · exact Cert.LibMatmul.matmul_plain_apply (M := 5000) (K := 32) (N := 64) dot_S5000x32_S32x64_S5000x64_1_0_0_1_n_n.wf none x w p q
  · exact broadcastTo_1b_ab_apply b broadcasts_S1x64_S5000x64 p q

/-- One block of launch 1: entry (p, q) of what the body stores is the row p of its input block times the column q of
    the weights, plus the bias row's entry q. (The two roundings on the way into the product are the identity on the
    extended reals, and the product starts from a zero accumulator.) -/
theorem pay1_apply (x : Vec Ideal S5000x64 .f32) (w : Vec Ideal S64x64 .f32) (b : Vec Ideal S1x64 .f32) (p : Fin 5000) (q : Fin 64) :
    k1_pay1 (F := Ideal) x w b (ix2 p q) = (∑ k : Fin 64, x (ix2 p k) * w (ix2 k q)) + b (ix2 (0 : Fin 1) q) := by
  unfold k1_pay1
  show (matmul (F := Ideal) dot_S5000x64_S64x64_S5000x64_1_0_0_1_n_n none (truncf .bf16 (shapeCast S5000x64 x shapeCasts_S5000x64_S5000x64) bitsLt_bf16_f32)
        (truncf .bf16 (shapeCast S64x64 w shapeCasts_S64x64_S64x64) bitsLt_bf16_f32) (constant S5000x64 .f32 0x00000000#32)) (ix2 p q)
      + (broadcastTo S5000x64 (shapeCast S1x64 b shapeCasts_S1x64_S1x64) broadcasts_S1x64_S5000x64) (ix2 p q) = _
  rw [shapeCast_self, shapeCast_self, shapeCast_self]
  refine congrArg₂ (· + ·) ?_ ?_
  · exact Cert.LibMatmul.matmul_plain_apply (M := 5000) (K := 64) (N := 64) dot_S5000x64_S64x64_S5000x64_1_0_0_1_n_n.wf none x w p q
  · exact broadcastTo_1b_ab_apply b broadcasts_S1x64_S5000x64 p q

/-- One block of launch 2: entry (p, q) of what the body stores is the row p of its input block times the column q of
    the weights, plus the bias row's entry q. (The two roundings on the way into the product are the identity on the
    extended reals, and the product starts from a zero accumulator.) -/
theorem pay2_apply (x : Vec Ideal S5000x64 .f32) (w : Vec Ideal S64x64 .f32) (b : Vec Ideal S1x64 .f32) (p : Fin 5000) (q : Fin 64) :
    k2_pay1 (F := Ideal) x w b (ix2 p q) = (∑ k : Fin 64, x (ix2 p k) * w (ix2 k q)) + b (ix2 (0 : Fin 1) q) := by
  unfold k2_pay1
  show (matmul (F := Ideal) dot_S5000x64_S64x64_S5000x64_1_0_0_1_n_n none (truncf .bf16 (shapeCast S5000x64 x shapeCasts_S5000x64_S5000x64) bitsLt_bf16_f32)
        (truncf .bf16 (shapeCast S64x64 w shapeCasts_S64x64_S64x64) bitsLt_bf16_f32) (constant S5000x64 .f32 0x00000000#32)) (ix2 p q)
      + (broadcastTo S5000x64 (shapeCast S1x64 b shapeCasts_S1x64_S1x64) broadcasts_S1x64_S5000x64) (ix2 p q) = _
  rw [shapeCast_self, shapeCast_self, shapeCast_self]
  refine congrArg₂ (· + ·) ?_ ?_
  · exact Cert.LibMatmul.matmul_plain_apply (M := 5000) (K := 64) (N := 64) dot_S5000x64_S64x64_S5000x64_1_0_0_1_n_n.wf none x w p q
  · exact broadcastTo_1b_ab_apply b broadcasts_S1x64_S5000x64 p q

/-- One block of launch 3: entry (p, q) of what the body stores is the row p of its input block times the column q of
    the weights, plus the bias row's entry q. (The two roundings on the way into the product are the identity on the
    extended reals, and the product starts from a zero accumulator.) -/
theorem pay3_apply (x : Vec Ideal S5000x64 .f32) (w : Vec Ideal S64x64 .f32) (b : Vec Ideal S1x64 .f32) (p : Fin 5000) (q : Fin 64) :
    k3_pay1 (F := Ideal) x w b (ix2 p q) = (∑ k : Fin 64, x (ix2 p k) * w (ix2 k q)) + b (ix2 (0 : Fin 1) q) := by
  unfold k3_pay1
  show (matmul (F := Ideal) dot_S5000x64_S64x64_S5000x64_1_0_0_1_n_n none (truncf .bf16 (shapeCast S5000x64 x shapeCasts_S5000x64_S5000x64) bitsLt_bf16_f32)
        (truncf .bf16 (shapeCast S64x64 w shapeCasts_S64x64_S64x64) bitsLt_bf16_f32) (constant S5000x64 .f32 0x00000000#32)) (ix2 p q)
      + (broadcastTo S5000x64 (shapeCast S1x64 b shapeCasts_S1x64_S1x64) broadcasts_S1x64_S5000x64) (ix2 p q) = _
  rw [shapeCast_self, shapeCast_self, shapeCast_self]
  refine congrArg₂ (· + ·) ?_ ?_
  · exact Cert.LibMatmul.matmul_plain_apply (M := 5000) (K := 64) (N := 64) dot_S5000x64_S64x64_S5000x64_1_0_0_1_n_n.wf none x w p q
  · exact broadcastTo_1b_ab_apply b broadcasts_S1x64_S5000x64 p q

end Cert.KernelIdeal.Dense

end
-- ==== Proof.Dense0.lean ====
/-
  Launch 0 of the dense-layer kernel: what its output array holds when the launch ends. The grid has 20 points; point t
  reads rows 5000·t … 5000·t + 4999 of the input, the whole weight matrix and the whole bias row, and writes back rows
  5000·t … 5000·t + 4999 of the output. The twenty blocks tile the 100000 rows, and block t of the output is block t of
  one whole-array function of the arrays the launch finds: entry (p, q) ↦ Σ_k x (p, k) · w (k, q) + b q.
-/
import proofs.«117915_j33311766347862_1_alg».proof.Proof.Gen.KernelIdeal.Frame
import proofs.«117915_j33311766347862_1_alg».proof.Proof.DensePay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense0

open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output move one block of rows per point; the weights and
    the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The input block at point t is rows 5000·t … of the input array. -/
theorem x_block (c : Dev nD) (t : Fin cfg0.N) (p : Fin 5000) (k : Fin 32) (g : Fin 100000) (hg : g.val = t.val * 5000 + p.val) :
    iblk0 V c 0 t (ix2 p k) = (V c main_arg0 : S100000x32.Idx → Elt Ideal .f32) (ix2 g k) := by
  obtain ⟨e00, e01, -⟩ := idx_facts t
  show (V c main_arg0 : S100000x32.Idx → Elt Ideal .f32) (((cfg0.win 0).blk t).view.emb (ix2 p k)) = _
  refine congrArg _ (funext fun a => Fin.ext ?_)
  match a with
  | ⟨0, _⟩ => show win0_0.index t (0 : Fin 2) * 5000 + 1 * p.val = g.val; rw [e00, hg]; omega
  | ⟨1, _⟩ => show win0_0.index t (1 : Fin 2) * 32 + 1 * k.val = k.val; rw [e01]; omega

/-- The weight block at every point is the whole weight matrix. -/
theorem w_block (c : Dev nD) (t : Fin cfg0.N) (k : Fin 32) (q : Fin 64) :
    iblk0 V c 1 t (ix2 k q) = (V c main_arg3 : S32x64.Idx → Elt Ideal .f32) (ix2 k q) := by
  obtain ⟨-, -, e10, e11, -⟩ := idx_facts t
  show (V c main_arg3 : S32x64.Idx → Elt Ideal .f32) (((cfg0.win 1).blk t).view.emb (ix2 k q)) = _
  refine congrArg _ (funext fun a => Fin.ext ?_)
  match a with
  | ⟨0, _⟩ => show win0_1.index t (0 : Fin 2) * 32 + 1 * k.val = k.val; rw [e10]; omega
  | ⟨1, _⟩ => show win0_1.index t (1 : Fin 2) * 64 + 1 * q.val = q.val; rw [e11]; omega

/-- The bias block at every point is the whole bias row. -/
theorem b_block (c : Dev nD) (t : Fin cfg0.N) (q : Fin 64) :
    iblk0 V c 2 t (ix2 (0 : Fin 1) q) = (V c main_v30 : S1x64.Idx → Elt Ideal .f32) (ix2 (0 : Fin 1) q) := by
  obtain ⟨-, -, -, -, e20, e21, -⟩ := idx_facts t
  show (V c main_v30 : S1x64.Idx → Elt Ideal .f32) (((cfg0.win 2).blk t).view.emb (ix2 (0 : Fin 1) q)) = _
  refine congrArg _ (funext fun a => Fin.ext ?_)
  match a with
  | ⟨0, _⟩ => show win0_2.index t (0 : Fin 2) * 1 + 1 * 0 = 0; rw [e20]
  | ⟨1, _⟩ => show win0_2.index t (1 : Fin 2) * 64 + 1 * q.val = q.val; rw [e21]; omega

/-- Where the output block's entry (p, q) at point t lands in the output array: row 5000·t + p, column q. -/
theorem o_emb (t : Fin cfg0.N) (p : Fin 5000) (q : Fin 64) (g : Fin 100000) (hg : g.val = t.val * 5000 + p.val) :
    ((cfg0.win 3).blk t).view.emb (ix2 p q) = (ix2 g q : S100000x64.Idx) := by
  obtain ⟨-, -, -, -, -, -, e30, e31⟩ := idx_facts t
  refine funext fun a => Fin.ext ?_
  match a with
  | ⟨0, _⟩ => show win0_3.index t (0 : Fin 2) * 5000 + 1 * p.val = g.val; rw [e30, hg]; omega
  | ⟨1, _⟩ => show win0_3.index t (1 : Fin 2) * 64 + 1 * q.val = q.val; rw [e31]; omega

/-- What point t writes back is block t of the whole-array function. -/
theorem flushed_eq (c : Dev nD) (t : Fin cfg0.N) :
    (dat0 V c).flushed 3 t = ((cfg0.win 3).blk t).view.read (Elt Ideal)
      (affine (M := 100000) (K := 32) (N := 64) (V c main_arg0) (V c main_arg3) (V c main_v30)) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S1x64) hz]
  funext j
  obtain ⟨p, q, rfl⟩ : ∃ (p : Fin 5000) (q : Fin 64), j = ix2 p q := ⟨j 0, j 1, eq_ix2 j⟩
  have hN : t.val < 20 := lt_of_lt_of_eq t.isLt (show cfg0.N = 20 from N_0)
  let g : Fin 100000 := ⟨t.val * 5000 + p.val, by have := p.isLt; omega⟩
  show k0_pay1 (F := Ideal) (iblk0 V c 0 t) (iblk0 V c 1 t) (iblk0 V c 2 t) (ix2 p q)
    = affine (M := 100000) (K := 32) (N := 64) (V c main_arg0) (V c main_arg3) (V c main_v30) (((cfg0.win 3).blk t).view.emb (ix2 p q))
  rw [o_emb t p q g rfl, affine_apply]
  refine (pay0_apply (iblk0 V c 0 t) (iblk0 V c 1 t) (iblk0 V c 2 t) p q).trans ?_
  rw [b_block V c t q]
  refine congrArg (· + _) (Finset.sum_congr rfl fun k _ => ?_)
  rw [x_block V c t p k g rfl, w_block V c t k q]

/-- An index of the output array is in point t's block iff each coordinate is in the block's range on its axis. -/
theorem mem_blk (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v31).slice (win0_3.rect t)).set ↔ _
  rw [View.set_slice_whole, Rect.mem_set_unit]
  exact Iff.rfl

/-- THE OUTPUT ARRAY when the launch ends: the whole-array function of the arrays the launch finds. -/
theorem final (c : Dev nD) :
    (dat0 V c).arrAt 3 cfg0.N = affine (M := 100000) (K := 32) (N := 64) (V c main_arg0) (V c main_arg3) (V c main_v30) :=
  (dat0 V c).arrAt_eq_of_cover 3 _ (fun t _ => flushed_eq V c t) fun i => by
    have h0 : (i 0).val < 100000 := (i 0).isLt
    have h1 : (i 1).val < 64 := (i 1).isLt
    let t : Fin cfg0.N := ⟨(i 0).val / 5000, by rw [show cfg0.N = 20 from N_0]; omega⟩
    obtain ⟨-, -, -, -, -, -, e30, e31⟩ := idx_facts t
    refine ⟨t, flush0_3 t, ?_⟩
    rw [mem_blk]
    intro a
    match a with
    | ⟨0, _⟩ => show win0_3.index t (0 : Fin 2) * 5000 ≤ (i 0).val ∧ (i 0).val < win0_3.index t (0 : Fin 2) * 5000 + 5000
                rw [e30]; show (i 0).val / 5000 * 5000 ≤ (i 0).val ∧ (i 0).val < (i 0).val / 5000 * 5000 + 5000; omega
    | ⟨1, _⟩ => show win0_3.index t (1 : Fin 2) * 64 ≤ (i 1).val ∧ (i 1).val < win0_3.index t (1 : Fin 2) * 64 + 64
                rw [e31]; omega

end Cert.KernelIdeal.Dense0

end
-- ==== Proof.Dense1.lean ====
/-
  Launch 1 of the dense-layer kernel: what its output array holds when the launch ends. The grid has 20 points; point t
  reads rows 5000·t … 5000·t + 4999 of the input, the whole weight matrix and the whole bias row, and writes back rows
  5000·t … 5000·t + 4999 of the output. The twenty blocks tile the 100000 rows, and block t of the output is block t of
  one whole-array function of the arrays the launch finds: entry (p, q) ↦ Σ_k x (p, k) · w (k, q) + b q.
-/
import proofs.«117915_j33311766347862_1_alg».proof.Proof.Gen.KernelIdeal.Frame
import proofs.«117915_j33311766347862_1_alg».proof.Proof.DensePay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense1

open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output move one block of rows per point; the weights and
    the bias stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t is rows 5000·t … of the input array. -/
theorem x_block (c : Dev nD) (t : Fin cfg1.N) (p : Fin 5000) (k : Fin 64) (g : Fin 100000) (hg : g.val = t.val * 5000 + p.val) :
    iblk1 V c 0 t (ix2 p k) = (V c main_v31 : S100000x64.Idx → Elt Ideal .f32) (ix2 g k) := by
  obtain ⟨e00, e01, -⟩ := idx_facts t
  show (V c main_v31 : S100000x64.Idx → Elt Ideal .f32) (((cfg1.win 0).blk t).view.emb (ix2 p k)) = _
  refine congrArg _ (funext fun a => Fin.ext ?_)
  match a with
  | ⟨0, _⟩ => show win1_0.index t (0 : Fin 2) * 5000 + 1 * p.val = g.val; rw [e00, hg]; omega
  | ⟨1, _⟩ => show win1_0.index t (1 : Fin 2) * 64 + 1 * k.val = k.val; rw [e01]; omega

/-- The weight block at every point is the whole weight matrix. -/
theorem w_block (c : Dev nD) (t : Fin cfg1.N) (k : Fin 64) (q : Fin 64) :
    iblk1 V c 1 t (ix2 k q) = (V c main_v34 : S64x64.Idx → Elt Ideal .f32) (ix2 k q) := by
  obtain ⟨-, -, e10, e11, -⟩ := idx_facts t
  show (V c main_v34 : S64x64.Idx → Elt Ideal .f32) (((cfg1.win 1).blk t).view.emb (ix2 k q)) = _
  refine congrArg _ (funext fun a => Fin.ext ?_)
  match a with
  | ⟨0, _⟩ => show win1_1.index t (0 : Fin 2) * 64 + 1 * k.val = k.val; rw [e10]; omega
  | ⟨1, _⟩ => show win1_1.index t (1 : Fin 2) * 64 + 1 * q.val = q.val; rw [e11]; omega

/-- The bias block at every point is the whole bias row. -/
theorem b_block (c : Dev nD) (t : Fin cfg1.N) (q : Fin 64) :
    iblk1 V c 2 t (ix2 (0 : Fin 1) q) = (V c main_v32 : S1x64.Idx → Elt Ideal .f32) (ix2 (0 : Fin 1) q) := by
  obtain ⟨-, -, -, -, e20, e21, -⟩ := idx_facts t
  show (V c main_v32 : S1x64.Idx → Elt Ideal .f32) (((cfg1.win 2).blk t).view.emb (ix2 (0 : Fin 1) q)) = _
  refine congrArg _ (funext fun a => Fin.ext ?_)
  match a with
  | ⟨0, _⟩ => show win1_2.index t (0 : Fin 2) * 1 + 1 * 0 = 0; rw [e20]
  | ⟨1, _⟩ => show win1_2.index t (1 : Fin 2) * 64 + 1 * q.val = q.val; rw [e21]; omega

/-- Where the output block's entry (p, q) at point t lands in the output array: row 5000·t + p, column q. -/
theorem o_emb (t : Fin cfg1.N) (p : Fin 5000) (q : Fin 64) (g : Fin 100000) (hg : g.val = t.val * 5000 + p.val) :
    ((cfg1.win 3).blk t).view.emb (ix2 p q) = (ix2 g q : S100000x64.Idx) := by
  obtain ⟨-, -, -, -, -, -, e30, e31⟩ := idx_facts t
  refine funext fun a => Fin.ext ?_
  match a with
  | ⟨0, _⟩ => show win1_3.index t (0 : Fin 2) * 5000 + 1 * p.val = g.val; rw [e30, hg]; omega
  | ⟨1, _⟩ => show win1_3.index t (1 : Fin 2) * 64 + 1 * q.val = q.val; rw [e31]; omega

/-- What point t writes back is block t of the whole-array function. -/
theorem flushed_eq (c : Dev nD) (t : Fin cfg1.N) :
    (dat1 V c).flushed 3 t = ((cfg1.win 3).blk t).view.read (Elt Ideal)
      (affine (M := 100000) (K := 64) (N := 64) (V c main_v31) (V c main_v34) (V c main_v32)) := by
  show (cfg1.win 3).cut (grid1.coords t) ((dat1 V c).after 3 t) = _
  rw [after1_3]
  unfold out1_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hN : t.val < 20 := lt_of_lt_of_eq t.isLt (show cfg1.N = 20 from N_1)
  let g : Fin 100000 := ⟨t.val * 5000 + p.val, by have := p.isLt; omega⟩
  show k1_pay1 (F := Ideal) (iblk1 V c 0 t) (iblk1 V c 1 t) (iblk1 V c 2 t) (ix2 p q)
    = affine (M := 100000) (K := 64) (N := 64) (V c main_v31) (V c main_v34) (V c main_v32) (((cfg1.win 3).blk t).view.emb (ix2 p q))
  rw [o_emb t p q g rfl, affine_apply]
  refine (pay1_apply (iblk1 V c 0 t) (iblk1 V c 1 t) (iblk1 V c 2 t) p q).trans ?_
  rw [b_block V c t q]
  refine congrArg (· + _) (Finset.sum_congr rfl fun k _ => ?_)
  rw [x_block V c t p k g rfl, w_block V c t k q]

/-- An index of the output array is in point t's block iff each coordinate is in the block's range on its axis. -/
theorem mem_blk (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v35).slice (win1_3.rect t)).set ↔ _
  rw [View.set_slice_whole, Rect.mem_set_unit]
  exact Iff.rfl

/-- THE OUTPUT ARRAY when the launch ends: the whole-array function of the arrays the launch finds. -/
theorem final (c : Dev nD) :
    (dat1 V c).arrAt 3 cfg1.N = affine (M := 100000) (K := 64) (N := 64) (V c main_v31) (V c main_v34) (V c main_v32) :=
  (dat1 V c).arrAt_eq_of_cover 3 _ (fun t _ => flushed_eq V c t) fun i => by
    have h0 : (i 0).val < 100000 := (i 0).isLt
    have h1 : (i 1).val < 64 := (i 1).isLt
    let t : Fin cfg1.N := ⟨(i 0).val / 5000, by rw [show cfg1.N = 20 from N_1]; omega⟩
    obtain ⟨-, -, -, -, -, -, e30, e31⟩ := idx_facts t
    refine ⟨t, flush1_3 t, ?_⟩
    rw [mem_blk]
    intro a
    match a with
    | ⟨0, _⟩ => show win1_3.index t (0 : Fin 2) * 5000 ≤ (i 0).val ∧ (i 0).val < win1_3.index t (0 : Fin 2) * 5000 + 5000
                rw [e30]; show (i 0).val / 5000 * 5000 ≤ (i 0).val ∧ (i 0).val < (i 0).val / 5000 * 5000 + 5000; omega
    | ⟨1, _⟩ => show win1_3.index t (1 : Fin 2) * 64 ≤ (i 1).val ∧ (i 1).val < win1_3.index t (1 : Fin 2) * 64 + 64
                rw [e31]; omega

end Cert.KernelIdeal.Dense1

end
-- ==== Proof.Dense2.lean ====
/-
  Launch 2 of the dense-layer kernel: what its output array holds when the launch ends. The grid has 20 points; point t
  reads rows 5000·t … 5000·t + 4999 of the input, the whole weight matrix and the whole bias row, and writes back rows
  5000·t … 5000·t + 4999 of the output. The twenty blocks tile the 100000 rows, and block t of the output is block t of
  one whole-array function of the arrays the launch finds: entry (p, q) ↦ Σ_k x (p, k) · w (k, q) + b q.
-/
import proofs.«117915_j33311766347862_1_alg».proof.Proof.Gen.KernelIdeal.Frame
import proofs.«117915_j33311766347862_1_alg».proof.Proof.DensePay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense2

open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output move one block of rows per point; the weights and
    the bias stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t is rows 5000·t … of the input array. -/
theorem x_block (c : Dev nD) (t : Fin cfg2.N) (p : Fin 5000) (k : Fin 64) (g : Fin 100000) (hg : g.val = t.val * 5000 + p.val) :
    iblk2 V c 0 t (ix2 p k) = (V c main_v54 : S100000x64.Idx → Elt Ideal .f32) (ix2 g k) := by
  obtain ⟨e00, e01, -⟩ := idx_facts t
  show (V c main_v54 : S100000x64.Idx → Elt Ideal .f32) (((cfg2.win 0).blk t).view.emb (ix2 p k)) = _
  refine congrArg _ (funext fun a => Fin.ext ?_)
  match a with
  | ⟨0, _⟩ => show win2_0.index t (0 : Fin 2) * 5000 + 1 * p.val = g.val; rw [e00, hg]; omega
  | ⟨1, _⟩ => show win2_0.index t (1 : Fin 2) * 64 + 1 * k.val = k.val; rw [e01]; omega

/-- The weight block at every point is the whole weight matrix. -/
theorem w_block (c : Dev nD) (t : Fin cfg2.N) (k : Fin 64) (q : Fin 64) :
    iblk2 V c 1 t (ix2 k q) = (V c main_v56 : S64x64.Idx → Elt Ideal .f32) (ix2 k q) := by
  obtain ⟨-, -, e10, e11, -⟩ := idx_facts t
  show (V c main_v56 : S64x64.Idx → Elt Ideal .f32) (((cfg2.win 1).blk t).view.emb (ix2 k q)) = _
  refine congrArg _ (funext fun a => Fin.ext ?_)
  match a with
  | ⟨0, _⟩ => show win2_1.index t (0 : Fin 2) * 64 + 1 * k.val = k.val; rw [e10]; omega
  | ⟨1, _⟩ => show win2_1.index t (1 : Fin 2) * 64 + 1 * q.val = q.val; rw [e11]; omega

/-- The bias block at every point is the whole bias row. -/
theorem b_block (c : Dev nD) (t : Fin cfg2.N) (q : Fin 64) :
    iblk2 V c 2 t (ix2 (0 : Fin 1) q) = (V c main_v32 : S1x64.Idx → Elt Ideal .f32) (ix2 (0 : Fin 1) q) := by
  obtain ⟨-, -, -, -, e20, e21, -⟩ := idx_facts t
  show (V c main_v32 : S1x64.Idx → Elt Ideal .f32) (((cfg2.win 2).blk t).view.emb (ix2 (0 : Fin 1) q)) = _
  refine congrArg _ (funext fun a => Fin.ext ?_)
  match a with
  | ⟨0, _⟩ => show win2_2.index t (0 : Fin 2) * 1 + 1 * 0 = 0; rw [e20]
  | ⟨1, _⟩ => show win2_2.index t (1 : Fin 2) * 64 + 1 * q.val = q.val; rw [e21]; omega

/-- Where the output block's entry (p, q) at point t lands in the output array: row 5000·t + p, column q. -/
theorem o_emb (t : Fin cfg2.N) (p : Fin 5000) (q : Fin 64) (g : Fin 100000) (hg : g.val = t.val * 5000 + p.val) :
    ((cfg2.win 3).blk t).view.emb (ix2 p q) = (ix2 g q : S100000x64.Idx) := by
  obtain ⟨-, -, -, -, -, -, e30, e31⟩ := idx_facts t
  refine funext fun a => Fin.ext ?_
  match a with
  | ⟨0, _⟩ => show win2_3.index t (0 : Fin 2) * 5000 + 1 * p.val = g.val; rw [e30, hg]; omega
  | ⟨1, _⟩ => show win2_3.index t (1 : Fin 2) * 64 + 1 * q.val = q.val; rw [e31]; omega

/-- What point t writes back is block t of the whole-array function. -/
theorem flushed_eq (c : Dev nD) (t : Fin cfg2.N) :
    (dat2 V c).flushed 3 t = ((cfg2.win 3).blk t).view.read (Elt Ideal)
      (affine (M := 100000) (K := 64) (N := 64) (V c main_v54) (V c main_v56) (V c main_v32)) := by
  show (cfg2.win 3).cut (grid2.coords t) ((dat2 V c).after 3 t) = _
  rw [after2_3]
  unfold out2_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hN : t.val < 20 := lt_of_lt_of_eq t.isLt (show cfg2.N = 20 from N_2)
  let g : Fin 100000 := ⟨t.val * 5000 + p.val, by have := p.isLt; omega⟩
  show k2_pay1 (F := Ideal) (iblk2 V c 0 t) (iblk2 V c 1 t) (iblk2 V c 2 t) (ix2 p q)
    = affine (M := 100000) (K := 64) (N := 64) (V c main_v54) (V c main_v56) (V c main_v32) (((cfg2.win 3).blk t).view.emb (ix2 p q))
  rw [o_emb t p q g rfl, affine_apply]
  refine (pay2_apply (iblk2 V c 0 t) (iblk2 V c 1 t) (iblk2 V c 2 t) p q).trans ?_
  rw [b_block V c t q]
  refine congrArg (· + _) (Finset.sum_congr rfl fun k _ => ?_)
  rw [x_block V c t p k g rfl, w_block V c t k q]

/-- An index of the output array is in point t's block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v57).slice (win2_3.rect t)).set ↔ _
  rw [View.set_slice_whole, Rect.mem_set_unit]
  exact Iff.rfl

/-- THE OUTPUT ARRAY when the launch ends: the whole-array function of the arrays the launch finds. -/
theorem final (c : Dev nD) :
    (dat2 V c).arrAt 3 cfg2.N = affine (M := 100000) (K := 64) (N := 64) (V c main_v54) (V c main_v56) (V c main_v32) :=
  (dat2 V c).arrAt_eq_of_cover 3 _ (fun t _ => flushed_eq V c t) fun i => by
    have h0 : (i 0).val < 100000 := (i 0).isLt
    have h1 : (i 1).val < 64 := (i 1).isLt
    let t : Fin cfg2.N := ⟨(i 0).val / 5000, by rw [show cfg2.N = 20 from N_2]; omega⟩
    obtain ⟨-, -, -, -, -, -, e30, e31⟩ := idx_facts t
    refine ⟨t, flush2_3 t, ?_⟩
    rw [mem_blk]
    intro a
    match a with
    | ⟨0, _⟩ => show win2_3.index t (0 : Fin 2) * 5000 ≤ (i 0).val ∧ (i 0).val < win2_3.index t (0 : Fin 2) * 5000 + 5000
                rw [e30]; show (i 0).val / 5000 * 5000 ≤ (i 0).val ∧ (i 0).val < (i 0).val / 5000 * 5000 + 5000; omega
    | ⟨1, _⟩ => show win2_3.index t (1 : Fin 2) * 64 ≤ (i 1).val ∧ (i 1).val < win2_3.index t (1 : Fin 2) * 64 + 64
                rw [e31]; omega

end Cert.KernelIdeal.Dense2

end
-- ==== Proof.Dense3.lean ====
/-
  Launch 3 of the dense-layer kernel: what its output array holds when the launch ends. The grid has 20 points; point t
  reads rows 5000·t … 5000·t + 4999 of the input, the whole weight matrix and the whole bias row, and writes back rows
  5000·t … 5000·t + 4999 of the output. The twenty blocks tile the 100000 rows, and block t of the output is block t of
  one whole-array function of the arrays the launch finds: entry (p, q) ↦ Σ_k x (p, k) · w (k, q) + b q.
-/
import proofs.«117915_j33311766347862_1_alg».proof.Proof.Gen.KernelIdeal.Frame
import proofs.«117915_j33311766347862_1_alg».proof.Proof.DensePay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Dense3

open Cert.KernelIdeal Cert.KernelIdeal.Gen Cert.KernelIdeal.Dense

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input and the output move one block of rows per point; the weights and
    the bias stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input block at point t is rows 5000·t … of the input array. -/
theorem x_block (c : Dev nD) (t : Fin cfg3.N) (p : Fin 5000) (k : Fin 64) (g : Fin 100000) (hg : g.val = t.val * 5000 + p.val) :
    iblk3 V c 0 t (ix2 p k) = (V c main_v76 : S100000x64.Idx → Elt Ideal .f32) (ix2 g k) := by
  obtain ⟨e00, e01, -⟩ := idx_facts t
  show (V c main_v76 : S100000x64.Idx → Elt Ideal .f32) (((cfg3.win 0).blk t).view.emb (ix2 p k)) = _
  refine congrArg _ (funext fun a => Fin.ext ?_)
  match a with
  | ⟨0, _⟩ => show win3_0.index t (0 : Fin 2) * 5000 + 1 * p.val = g.val; rw [e00, hg]; omega
  | ⟨1, _⟩ => show win3_0.index t (1 : Fin 2) * 64 + 1 * k.val = k.val; rw [e01]; omega

/-- The weight block at every point is the whole weight matrix. -/
theorem w_block (c : Dev nD) (t : Fin cfg3.N) (k : Fin 64) (q : Fin 64) :
    iblk3 V c 1 t (ix2 k q) = (V c main_v78 : S64x64.Idx → Elt Ideal .f32) (ix2 k q) := by
  obtain ⟨-, -, e10, e11, -⟩ := idx_facts t
  show (V c main_v78 : S64x64.Idx → Elt Ideal .f32) (((cfg3.win 1).blk t).view.emb (ix2 k q)) = _
  refine congrArg _ (funext fun a => Fin.ext ?_)
  match a with
  | ⟨0, _⟩ => show win3_1.index t (0 : Fin 2) * 64 + 1 * k.val = k.val; rw [e10]; omega
  | ⟨1, _⟩ => show win3_1.index t (1 : Fin 2) * 64 + 1 * q.val = q.val; rw [e11]; omega

/-- The bias block at every point is the whole bias row. -/
theorem b_block (c : Dev nD) (t : Fin cfg3.N) (q : Fin 64) :
    iblk3 V c 2 t (ix2 (0 : Fin 1) q) = (V c main_v32 : S1x64.Idx → Elt Ideal .f32) (ix2 (0 : Fin 1) q) := by
  obtain ⟨-, -, -, -, e20, e21, -⟩ := idx_facts t
  show (V c main_v32 : S1x64.Idx → Elt Ideal .f32) (((cfg3.win 2).blk t).view.emb (ix2 (0 : Fin 1) q)) = _
  refine congrArg _ (funext fun a => Fin.ext ?_)
  match a with
  | ⟨0, _⟩ => show win3_2.index t (0 : Fin 2) * 1 + 1 * 0 = 0; rw [e20]
  | ⟨1, _⟩ => show win3_2.index t (1 : Fin 2) * 64 + 1 * q.val = q.val; rw [e21]; omega

/-- Where the output block's entry (p, q) at point t lands in the output array: row 5000·t + p, column q. -/
theorem o_emb (t : Fin cfg3.N) (p : Fin 5000) (q : Fin 64) (g : Fin 100000) (hg : g.val = t.val * 5000 + p.val) :
    ((cfg3.win 3).blk t).view.emb (ix2 p q) = (ix2 g q : S100000x64.Idx) := by
  obtain ⟨-, -, -, -, -, -, e30, e31⟩ := idx_facts t
  refine funext fun a => Fin.ext ?_
  match a with
  | ⟨0, _⟩ => show win3_3.index t (0 : Fin 2) * 5000 + 1 * p.val = g.val; rw [e30, hg]; omega
  | ⟨1, _⟩ => show win3_3.index t (1 : Fin 2) * 64 + 1 * q.val = q.val; rw [e31]; omega

/-- What point t writes back is block t of the whole-array function. -/
theorem flushed_eq (c : Dev nD) (t : Fin cfg3.N) :
    (dat3 V c).flushed 3 t = ((cfg3.win 3).blk t).view.read (Elt Ideal)
      (affine (M := 100000) (K := 64) (N := 64) (V c main_v76) (V c main_v78) (V c main_v32)) := by
  show (cfg3.win 3).cut (grid3.coords t) ((dat3 V c).after 3 t) = _
  rw [after3_3]
  unfold out3_3
  rw [View.canon_unit_zero hz]
  simp only [View.ld_unit_zero (S := S5000x64) hz, View.ld_unit_zero (S := S64x64) hz, View.ld_unit_zero (S := S1x64) hz]
  funext j
  obtain ⟨p, q, rfl⟩ : ∃ (p : Fin 5000) (q : Fin 64), j = ix2 p q := ⟨j 0, j 1, eq_ix2 j⟩
  have hN : t.val < 20 := lt_of_lt_of_eq t.isLt (show cfg3.N = 20 from N_3)
  let g : Fin 100000 := ⟨t.val * 5000 + p.val, by have := p.isLt; omega⟩
  show k3_pay1 (F := Ideal) (iblk3 V c 0 t) (iblk3 V c 1 t) (iblk3 V c 2 t) (ix2 p q)
    = affine (M := 100000) (K := 64) (N := 64) (V c main_v76) (V c main_v78) (V c main_v32) (((cfg3.win 3).blk t).view.emb (ix2 p q))
  rw [o_emb t p q g rfl, affine_apply]
  refine (pay3_apply (iblk3 V c 0 t) (iblk3 V c 1 t) (iblk3 V c 2 t) p q).trans ?_
  rw [b_block V c t q]
  refine congrArg (· + _) (Finset.sum_congr rfl fun k _ => ?_)
  rw [x_block V c t p k g rfl, w_block V c t k q]

/-- An index of the output array is in point t's block iff each coordinate is in the block's range on its axis. -/
theorem mem_blk (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v79).slice (win3_3.rect t)).set ↔ _
  rw [View.set_slice_whole, Rect.mem_set_unit]
  exact Iff.rfl

/-- THE OUTPUT ARRAY when the launch ends: the whole-array function of the arrays the launch finds. -/
theorem final (c : Dev nD) :
    (dat3 V c).arrAt 3 cfg3.N = affine (M := 100000) (K := 64) (N := 64) (V c main_v76) (V c main_v78) (V c main_v32) :=
  (dat3 V c).arrAt_eq_of_cover 3 _ (fun t _ => flushed_eq V c t) fun i => by
    have h0 : (i 0).val < 100000 := (i 0).isLt
    have h1 : (i 1).val < 64 := (i 1).isLt
    let t : Fin cfg3.N := ⟨(i 0).val / 5000, by rw [show cfg3.N = 20 from N_3]; omega⟩
    obtain ⟨-, -, -, -, -, -, e30, e31⟩ := idx_facts t
    refine ⟨t, flush3_3 t, ?_⟩
    rw [mem_blk]
    intro a
    match a with
    | ⟨0, _⟩ => show win3_3.index t (0 : Fin 2) * 5000 ≤ (i 0).val ∧ (i 0).val < win3_3.index t (0 : Fin 2) * 5000 + 5000
                rw [e30]; show (i 0).val / 5000 * 5000 ≤ (i 0).val ∧ (i 0).val < (i 0).val / 5000 * 5000 + 5000; omega
    | ⟨1, _⟩ => show win3_3.index t (1 : Fin 2) * 64 ≤ (i 1).val ∧ (i 1).val < win3_3.index t (1 : Fin 2) * 64 + 64
                rw [e31]; omega

end Cert.KernelIdeal.Dense3

end
-- ==== Proof.LibErealLaws.lean ====
/- General laws of the extended reals `[-∞, +∞]` and of finite sums, stated over the
   idealized float operations (`Ideal.div`, `Ideal.sqrt`, `Ideal.rsqrt`, `Ideal.ofBits`). Nothing here
   mentions a program: the laws are about extended reals, finite index types and additive commutative
   monoids only.

   Contents:
   * a product with a reciprocal square root is a quotient by the square root, for a positive argument
     (at `+∞` both sides are `0`);
   * a square is nonnegative at every extended real (`(-∞)·(-∞) = +∞`), hence so is a sum of squares;
   * the float words `0x43000000` and `0x3727C5AC` denote the reals `128` and `10995116 · 2⁻⁴⁰`
     (about `1e-5`), both positive; dividing a nonnegative extended real by a positive real keeps it
     nonnegative, adding a positive real to it makes it positive;
   * a sum over `Fin (A * B)` is a sum over `A` blocks of `B` consecutive indices, and the same on
     three levels;
   * a running total defined by a recurrence is the sum over an initial segment, and a sum over
     `Finset.range N` is the sum over `Fin N`. -/
import Idealize.ShloMosaic.PureOps.Ideal
import Mathlib.Algebra.BigOperators.Fin
import Mathlib.Algebra.Order.BigOperators.Group.Finset

noncomputable section

namespace Cert.LibErealLaws

open Idealize.ShloMosaic
open scoped BigOperators

/-! ### Reciprocal square root -/

/-- For `0 < v` in the extended reals, `a · (1/√v) = a / √v`. At `v = +∞` the reciprocal square root
    is `0` and the square root is `+∞`, whose inverse is `0`: both sides are `a · 0 = 0`. At a positive
    real `r` the square root `√r` is a nonzero real, division by it is the product with its inverse,
    and the inverse of a real in the extended reals is the real inverse. -/
theorem mul_rsqrt_eq_div_sqrt {a v : EReal} (hv : 0 < v) :
    a * Ideal.rsqrt v = Ideal.div a (Ideal.sqrt v) := by
  induction v using EReal.rec with
  | bot => exact absurd hv (not_lt.mpr bot_le)
  | top =>
    rw [Ideal.rsqrt_top, Ideal.sqrt_top, Ideal.div, if_neg EReal.top_ne_zero, EReal.inv_top]
  | coe r =>
    have hr : 0 < r := by exact_mod_cast hv
    have hs : Real.sqrt r ≠ 0 := (Real.sqrt_pos.mpr hr).ne'
    have hs' : ((Real.sqrt r : ℝ) : EReal) ≠ 0 := by exact_mod_cast hs
    rw [Ideal.rsqrt_coe, if_neg (not_lt.mpr hr.le), if_neg hr.ne', Ideal.sqrt_coe,
      if_neg (not_lt.mpr hr.le), Ideal.div, if_neg hs', EReal.coe_inv]

/-! ### Squares and sums of squares -/

/-- A square is nonnegative at every extended real: `(+∞)² = (-∞)² = +∞`, and a real square is
    nonnegative. (Both factors are on the same side of `0`.) -/
theorem mul_self_nonneg (x : EReal) : 0 ≤ x * x :=
  EReal.mul_nonneg_iff.mpr ((le_total 0 x).imp (fun h => ⟨h, h⟩) (fun h => ⟨h, h⟩))

/-- A finite sum of squares of extended reals is nonnegative. -/
theorem sum_mul_self_nonneg {ι : Type*} (s : Finset ι) (g : ι → EReal) :
    0 ≤ ∑ i ∈ s, g i * g i :=
  Finset.sum_nonneg fun i _ => mul_self_nonneg (g i)

/-! ### Division by a positive real, addition of a positive real -/

/-- Dividing a nonnegative extended real by a positive real leaves it nonnegative: the quotient is
    the product with the positive real `1/y`. -/
theorem div_coe_nonneg {x : EReal} {y : ℝ} (hx : 0 ≤ x) (hy : 0 < y) :
    0 ≤ Ideal.div x (y : EReal) := by
  rw [Ideal.div_coe hy.ne']
  exact EReal.mul_nonneg hx (by exact_mod_cast (one_div_pos.mpr hy).le)

/-- Adding a positive real to a nonnegative extended real gives a positive one:
    `0 < ε = 0 + ε ≤ x + ε`. -/
theorem add_coe_pos {x : EReal} {ε : ℝ} (hx : 0 ≤ x) (hε : 0 < ε) : 0 < x + (ε : EReal) := by
  have h : (0 : EReal) + (ε : EReal) ≤ x + (ε : EReal) := add_le_add hx le_rfl
  rw [zero_add] at h
  exact lt_of_lt_of_le (by exact_mod_cast hε) h

/-! ### Two float words -/

/-- The `f32` word `0x43000000` (sign `0`, exponent field `134`, fraction `0`) denotes
    `2²³ · 2^(134 - 127 - 23) = 128`. -/
theorem ofBits_c128 : Ideal.ofBits .f32 0x43000000#32 = ((128 : ℝ) : EReal) := by
  simp [Ideal.ofBits, Ideal.ieee, -EReal.coe_mul]; norm_num

/-- The `f32` word `0x3727C5AC` (sign `0`, exponent field `110`, fraction `0x27C5AC = 2606508`)
    denotes `(2²³ + 2606508) · 2^(110 - 127 - 23) = 10995116 · 2⁻⁴⁰`, about `1.0000000e-5`. -/
theorem ofBits_epsLn :
    Ideal.ofBits .f32 0x3727C5AC#32 = ((10995116 * (2 : ℝ) ^ (-40 : ℤ) : ℝ) : EReal) := by
  simp [Ideal.ofBits, Ideal.ieee, -EReal.coe_mul]

/-- The word `0x3727C5AC` denotes a positive real. -/
theorem ofBits_epsLn_pos :
    ∃ ε : ℝ, 0 < ε ∧ Ideal.ofBits .f32 0x3727C5AC#32 = (ε : EReal) :=
  ⟨10995116 * (2 : ℝ) ^ (-40 : ℤ), by positivity, ofBits_epsLn⟩

/-- A nonnegative extended real divided by the float `128.0` is nonnegative. -/
theorem div_c128_nonneg {x : EReal} (hx : 0 ≤ x) :
    0 ≤ Ideal.div x (Ideal.ofBits .f32 0x43000000#32) := by
  rw [ofBits_c128]; exact div_coe_nonneg hx (by norm_num)

/-- A nonnegative extended real plus the float `0x3727C5AC` (about `1e-5`) is positive. -/
theorem add_epsLn_pos {x : EReal} (hx : 0 ≤ x) :
    0 < x + Ideal.ofBits .f32 0x3727C5AC#32 := by
  obtain ⟨ε, hε, he⟩ := ofBits_epsLn_pos
  rw [he]; exact add_coe_pos hx hε

/-- The guarded mean of squares `(∑ i, g i · g i) / 128 + ε` (with `ε` the float `0x3727C5AC`) is
    positive, whatever the extended reals `g i` are: the sum of squares is nonnegative, so is its
    quotient by `128`, and adding the positive real `ε` makes it positive. -/
theorem var_guard_pos {ι : Type*} [Fintype ι] (g : ι → EReal) :
    0 < Ideal.div (∑ i, g i * g i) (Ideal.ofBits .f32 0x43000000#32)
      + Ideal.ofBits .f32 0x3727C5AC#32 :=
  add_epsLn_pos (div_c128_nonneg (sum_mul_self_nonneg Finset.univ g))

/-! ### Regrouping a sum into blocks -/

section Blocks
variable {M : Type*} [AddCommMonoid M]

/-- Index `a · B + b` of block `a < A`, offset `b < B`, lies below `A · B`. -/
theorem block_index_lt {A B : ℕ} (a : Fin A) (b : Fin B) : a.val * B + b.val < A * B :=
  calc a.val * B + b.val < a.val * B + B := Nat.add_lt_add_left b.isLt _
    _ = (a.val + 1) * B := (Nat.succ_mul _ _).symm
    _ ≤ A * B := Nat.mul_le_mul_right _ a.isLt

/-- A sum over `Fin (A * B)` is the sum over the `A` blocks of the sums over the `B` consecutive
    indices `a · B + b` of each block: `(a, b) ↦ a · B + b` is a bijection from `Fin A × Fin B` onto
    `Fin (A * B)`, and addition is commutative and associative. -/
theorem sum_fin_blocks (A B : ℕ) (f : Fin (A * B) → M) :
    ∑ n, f n = ∑ a : Fin A, ∑ b : Fin B, f ⟨a.val * B + b.val, block_index_lt a b⟩ := by
  rw [← Equiv.sum_comp finProdFinEquiv f, Fintype.sum_prod_type]
  refine Finset.sum_congr rfl fun a _ => Finset.sum_congr rfl fun b _ => ?_
  congr 1
  apply Fin.ext
  show b.val + B * a.val = a.val * B + b.val
  rw [Nat.mul_comm, Nat.add_comm]

/-- Index `(a · B + b) · C + c` lies below `A · B · C`. -/
theorem block_index_lt3 {A B C : ℕ} (a : Fin A) (b : Fin B) (c : Fin C) :
    (a.val * B + b.val) * C + c.val < A * B * C :=
  block_index_lt (⟨a.val * B + b.val, block_index_lt a b⟩ : Fin (A * B)) c

/-- The same on three levels: a sum over `Fin (A * B * C)` is the sum over `a < A`, `b < B`,
    `c < C` of the term at `(a · B + b) · C + c`. -/
theorem sum_fin_blocks3 (A B C : ℕ) (f : Fin (A * B * C) → M) :
    ∑ n, f n = ∑ a : Fin A, ∑ b : Fin B, ∑ c : Fin C,
      f ⟨(a.val * B + b.val) * C + c.val, block_index_lt3 a b c⟩ := by
  rw [sum_fin_blocks (A * B) C f,
    sum_fin_blocks A B (fun n : Fin (A * B) => ∑ c : Fin C, f ⟨n.val * C + c.val, block_index_lt n c⟩)]

/-- `32768 = 2 · 64 · 256` rows as `2` halves of `64` groups of `256` consecutive rows. -/
theorem sum_rows_2_64_256 (f : Fin 32768 → M) :
    ∑ n, f n = ∑ c : Fin 2, ∑ i : Fin 64, ∑ r : Fin 256,
      f ⟨(c.val * 64 + i.val) * 256 + r.val, by omega⟩ :=
  sum_fin_blocks3 2 64 256 f

end Blocks

/-! ### A running total is a sum -/

section Fold
variable {M : Type*} [AddCommMonoid M]

/-- A sequence that starts at `p 0` and adds `p (n + 1)` at step `n + 1` is the sequence of partial
    sums `∑ i ≤ n, p i`. -/
theorem fold_eq_sum (p acc : ℕ → M) (h0 : acc 0 = p 0)
    (hs : ∀ n, acc (n + 1) = acc n + p (n + 1)) (n : ℕ) :
    acc n = ∑ i ∈ Finset.range (n + 1), p i := by
  induction n with
  | zero => rw [h0, Finset.sum_range_one]
  | succ k ih => rw [hs k, ih, Finset.sum_range_succ p (k + 1)]

/-- A sum over the first `N` naturals is the sum over `Fin N` of the values. -/
theorem sum_range_eq_sum_fin (N : ℕ) (p : ℕ → M) :
    ∑ i ∈ Finset.range N, p i = ∑ i : Fin N, p i.val :=
  (Fin.sum_univ_eq_sum_range p N).symm

end Fold

end Cert.LibErealLaws

end
-- ==== Proof.Pool.lean ====
/-
  The last launch, the sum kernel: what its one-row output holds when the launch ends. The grid has 20 points; point t
  reads rows 5000·t … 5000·t + 4999 of the input. The first point clears the output row and adds its block's column sums;
  every later point adds its block's column sums onto what the row held; the row is written back once, after the last
  point. So the row ends at  q ↦ 0 + Σ_{t < 20} Σ_{r < 5000} x (5000·t + r, q),  which is the sum over all 100000 rows:
  sums of extended reals may be regrouped, addition being commutative and associative there.
-/
import proofs.«117915_j33311766347862_1_alg».proof.Proof.Gen.KernelIdeal.Frame
import proofs.«117915_j33311766347862_1_alg».proof.Proof.LibErealLaws
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Pool

open Cert.KernelIdeal Cert.KernelIdeal.Gen

theorem hz : (![0, 0] : Fin 2 → Nat) = fun _ => 0 := funext fun a => by fin_cases a <;> rfl

section Pieces
variable {F : FTy → Type} [FloatOps F]

/-- The first point: the row is cleared, read back, and the block's column sums are added onto it. -/
theorem first_point (c : Dev nD) (i : grid4.Coords) (arg1 : Memref sig .tc .vmem S5000x64 .f32) (harg1 : arg1.IsWhole)
    (arg2 : Memref sig .tc .vmem S1x64 .f32) (harg2 : arg2.IsWhole) (hc0 : cond4_0 i) (x0 : Vec F S5000x64 .f32) :
    out4_A_1 c i arg1 harg1 arg2 harg2 hc0 x0 = k4_pay2 (k4_pay1 (F := F)) x0 := by
  unfold out4_A_1
  rw [View.read_writes_eq_canon _ _ _ (cover4_A_1 c i arg1 harg1 arg2 harg2 hc0 x0)]
  unfold kernelRun4_A
  dsimp only
  try sl_unfold_words
  rw [View.canon_cons_unit_zero hz, View.readCov_unit_zero (S := S1x64) _ hz]
  simp only [View.readAt_eq_ld, harg1.read_unread, View.ld_unit_zero (S := S5000x64) hz]

/-- A later point: the block's column sums are added onto what the row held. -/
theorem later_point (c : Dev nD) (i : grid4.Coords) (arg1 : Memref sig .tc .vmem S5000x64 .f32) (harg1 : arg1.IsWhole)
    (arg2 : Memref sig .tc .vmem S1x64 .f32) (harg2 : arg2.IsWhole) (hc0 : ¬cond4_0 i) (x0 : Vec F S5000x64 .f32)
    (xo1 : Vec F S1x64 .f32) :
    out4_B_1 c i arg1 harg1 arg2 harg2 hc0 x0 xo1 = k4_pay2 xo1 x0 := by
  unfold out4_B_1
  rw [View.read_writes_eq_canon _ _ _ (cover4_B_1 c i arg1 harg1 arg2 harg2 hc0 x0 xo1)]
  unfold kernelRun4_B
  dsimp only
  try sl_unfold_words
  rw [View.canon_unit_zero hz]
  simp only [View.readAt_eq_ld, harg1.read_unread, harg2.read_unread, View.ld_unit_zero (S := S5000x64) hz,
    View.ld_unit_zero (S := S1x64) hz]

end Pieces

/-- The cleared row is zero everywhere. -/
theorem cleared_apply (q : Fin 64) : k4_pay1 (F := Ideal) (ix2 (0 : Fin 1) q) = 0 := by
  unfold k4_pay1
  show Ideal.ofBits .f32 0x00000000#32 = 0
  exact Ideal.ofBits_zero_f32

/-- Adding a block onto the row: entry q gains the sum of the block's column q. -/
theorem add_block_apply (acc : Vec Ideal S1x64 .f32) (x : Vec Ideal S5000x64 .f32) (q : Fin 64) :
    k4_pay2 (F := Ideal) acc x (ix2 (0 : Fin 1) q) = acc (ix2 (0 : Fin 1) q) + ∑ r : Fin 5000, x (ix2 r q) := by
  unfold k4_pay2
  show (shapeCast S1x64 acc shapeCasts_S1x64_S1x64) (ix2 (0 : Fin 1) q)
      + (shapeCast S1x64 (multiReduction (F := Ideal) .add [0] S64 (shapeCast S5000x64 x shapeCasts_S5000x64_S5000x64) 0x00000000#32
          reduces_S5000x64_S64 (.inl rfl) rfl) shapeCasts_S64_S1x64) (ix2 (0 : Fin 1) q) = _
  rw [shapeCast_self, shapeCast_self, shapeCast_a_1a_apply]
  refine congrArg (_ + ·) ?_
  refine (Ideal.multiReduction_add_single x 0x00000000#32 reduces_S5000x64_S64 (.inl rfl) rfl (ix1 q)).trans ?_
  show ∑ k : Fin 5000, x (reduces_S5000x64_S64.lift (ix1 q) k) = _
  refine Finset.sum_congr rfl fun k _ => congrArg x ?_
  funext d
  match d with
  | ⟨0, _⟩ => rfl
  | ⟨1, _⟩ => rfl

variable (V : (c : Dev nD) → (b : Ref sig .tc) → Buf (Elt Ideal) ((c : Thread nD τ).loc b))

/-- The array the launch sums, as it finds it. -/
abbrev src (c : Dev nD) : FVec Ideal S100000x64 .f32 := V c main_v98

/-- The printed index maps over the grid: the input moves one block of rows per point, the output row stays. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0 :=
  (by decide +kernel : ∀ t : Fin grid4.N, _)

/-- The input block at point t is rows 5000·t … of the input array. -/
theorem x_block (c : Dev nD) (t : Fin cfg4.N) (r : Fin 5000) (q : Fin 64) (g : Fin 100000) (hg : g.val = t.val * 5000 + r.val) :
    iblk4 V c 0 t (ix2 r q) = src V c (ix2 g q) := by
  obtain ⟨e00, e01, -⟩ := idx_facts t
  show src V c (((cfg4.win 0).blk t).view.emb (ix2 r q)) = _
  refine congrArg _ (funext fun a => Fin.ext ?_)
  match a with
  | ⟨0, _⟩ => show win4_0.index t (0 : Fin 2) * 5000 + 1 * r.val = g.val; rw [e00, hg]; omega
  | ⟨1, _⟩ => show win4_0.index t (1 : Fin 2) * 64 + 1 * q.val = q.val; rw [e01]; omega

/-- The column sum of the block of rows starting at 5000·n (zero past the grid). -/
def blockSum (c : Dev nD) (q : Fin 64) (n : ℕ) : EReal :=
  if h : n < 20 then ∑ r : Fin 5000, src V c
    (ix2 (⟨n * 5000 + r.val, by have := r.isLt; omega⟩ : Fin 100000) q) else 0

/-- What the row holds after point n: the column sums of blocks 0 … n, added in order onto zero. -/
theorem row_after (c : Dev nD) (q : Fin 64) : ∀ (n : ℕ) (hn : n < cfg4.N),
    outsAt4 V c n hn (ix2 (0 : Fin 1) q) = 0 + ∑ t ∈ Finset.range (n + 1), blockSum V c q t := by
  have hN : cfg4.N = 20 := N_4
  intro n
  induction n with
  | zero =>
    intro hn
    rw [outsAt4_A V c ⟨0, hn⟩ (Nat.zero_mod _)]
    rw [first_point, add_block_apply, cleared_apply, Finset.sum_range_one]
    refine congrArg (0 + ·) ?_
    unfold blockSum
    rw [dif_pos (by omega)]
    exact Finset.sum_congr rfl fun r _ => x_block V c ⟨0, hn⟩ r q _ rfl
  | succ k ih =>
    intro hn
    have hk : k + 1 < 20 := hN ▸ hn
    rw [outsAt4_B V c ⟨k + 1, hn⟩ (by show ¬ (k + 1) % 20 = 0; omega)]
    rw [later_point, add_block_apply]
    show outsAt4 V c k _ (ix2 (0 : Fin 1) q) + _ = _
    rw [ih (Nat.lt_of_succ_lt hn), Finset.sum_range_succ _ (k + 1), add_assoc]
    refine congrArg (fun z : EReal => 0 + (∑ t ∈ Finset.range (k + 1), blockSum V c q t + z)) ?_
    unfold blockSum
    rw [dif_pos hk]
    exact Finset.sum_congr rfl fun r _ => x_block V c ⟨k + 1, hn⟩ r q _ rfl

/-- The row after the last point, as a function of the input array: the total of each column over all rows. -/
def total (c : Dev nD) : FVec Ideal S1x64 .f32 :=
  fun i => (0 : EReal) + ∑ n : Fin 100000, src V c (ix2 (n1 := 64) n (i 1))

theorem row_last (c : Dev nD) (hn : 19 < cfg4.N) : outsAt4 V c 19 hn = total V c := by
  funext i
  obtain ⟨u, q, rfl⟩ : ∃ (u : Fin 1) (q : Fin 64), i = ix2 u q := ⟨i 0, i 1, eq_ix2 i⟩
  obtain rfl : u = 0 := Subsingleton.elim _ _
  rw [row_after V c q 19 hn]
  refine congrArg (0 + ·) ?_
  show _ = ∑ n : Fin 100000, src V c (ix2 n q)
  rw [Cert.LibErealLaws.sum_range_eq_sum_fin 20 (blockSum V c q),
    Cert.LibErealLaws.sum_fin_blocks 20 5000 (fun n : Fin (20 * 5000) => src V c (ix2 (n0 := 100000) n q))]
  refine Finset.sum_congr rfl fun t _ => ?_
  unfold blockSum
  rw [dif_pos t.isLt]

/-- The one write-back, after the last point, writes the total: the output row is one block, read whole. -/
theorem flushed_eq (c : Dev nD) (t : Fin cfg4.N) (hf : (cfg4.win 1).flush t = true) :
    (dat4 V c).flushed 1 t = ((cfg4.win 1).blk t).view.read (Elt Ideal) (total V c) := by
  have hN : cfg4.N = 20 := N_4
  have h19 : t.val = 19 := by have := (flush4_1 t).mp hf; have := t.isLt; omega
  obtain ⟨-, -, e10, e11⟩ := idx_facts t
  show (cfg4.win 1).cut (grid4.coords t) ((dat4 V c).after 1 t) = _
  rw [after4_1]
  have e : outsAt4 V c t.val t.isLt = total V c := by
    have : ∀ (n : ℕ) (hn : n < cfg4.N), n = 19 → outsAt4 V c n hn = total V c := by
      intro n hn hn19; subst hn19; exact row_last V c hn
    exact this t.val t.isLt h19
  rw [e]
  funext j
  obtain ⟨u, q, rfl⟩ : ∃ (u : Fin 1) (q : Fin 64), j = ix2 u q := ⟨j 0, j 1, eq_ix2 j⟩
  show total V c (ix2 u q) = total V c (((cfg4.win 1).blk t).view.emb (ix2 u q))
  refine congrArg (total V c) (funext fun a => Fin.ext ?_)
  match a with
  | ⟨0, _⟩ => show u.val = win4_1.index t (0 : Fin 2) * 1 + 1 * u.val; rw [e10]; omega
  | ⟨1, _⟩ => show q.val = win4_1.index t (1 : Fin 2) * 64 + 1 * q.val; rw [e11]; omega

/-- THE OUTPUT ROW when the launch ends: the total of each column of the array the launch finds. -/
theorem final (c : Dev nD) : (dat4 V c).arrAt 1 cfg4.N = total V c :=
  (dat4 V c).arrAt_eq_of_cover 1 _ (flushed_eq V c) fun i => by
    have hN : cfg4.N = 20 := N_4
    let t : Fin cfg4.N := ⟨19, by omega⟩
    obtain ⟨-, -, e10, e11⟩ := idx_facts t
    refine ⟨t, (flush4_1 t).mpr rfl, ?_⟩
    show i ∈ ((View.whole main_v99).slice (win4_1.rect t)).set
    rw [View.set_slice_whole, Rect.mem_set_unit]
    intro a
    have h0 : (i 0).val < 1 := (i 0).isLt
    have h1 : (i 1).val < 64 := (i 1).isLt
    match a with
    | ⟨0, _⟩ => show win4_1.index t (0 : Fin 2) * 1 ≤ (i 0).val ∧ (i 0).val < win4_1.index t (0 : Fin 2) * 1 + 1
                rw [e10]; omega
    | ⟨1, _⟩ => show win4_1.index t (1 : Fin 2) * 64 ≤ (i 1).val ∧ (i 1).val < win4_1.index t (1 : Fin 2) * 64 + 64
                rw [e11]; omega

end Cert.KernelIdeal.Pool

end
-- ==== Proof.LibColumn.lean ====
/-
  A column kept beside a matrix, read at an index at any sizes: a vector of length a cast to an [a, 1] column, and an
  [a, 1] column laid along every column of an [a, b] matrix.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to the column `[a, 1]` reads, at `(p, u)`, the operand at `p`, whatever the unit coordinate. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibLayer.lean ====
/-
  The two whole-array functions of one graph-convolution layer, read at an entry at any sizes, over the extended reals:
  the product of an [M, K] matrix by a [K, N] matrix (entry (p, q) is the sum over k of x (p, k) · w (k, q)), and the
  layer's closing step, entry (p, q) ↦ agg (p, q) + h (p, q) · d p + b q, where d weighs the rows and b is added along
  the columns — stated once with d kept as an [n, 1] column and b as a [1, f] row, and once with both as plain vectors.
  Also: the host's dot_general with the plain dimension numbers is the product, and the host's spelling of the closing
  step (two broadcasts each for d and b, a multiply and two adds) is the closing step.
-/
import Idealize.ShloMosaic.PureOps.Ideal.Laws
import Idealize.ShloMosaic.Lib.ValueIdx
import Idealize.ShloMosaic.Lib.ValueLayout
import Idealize.ShloMosaic.Lib.Pipeline.Value
import proofs.«117915_j33311766347862_1_alg».proof.Proof.LibMatmul
import proofs.«117915_j33311766347862_1_alg».proof.Proof.LibColumn

noncomputable section

namespace Cert.Gcn

open Idealize.ShloMosaic Idealize.ShloMosaic.ValueIdx

/-! ## The matrix product -/

/-- The product of an [M, K] matrix by a [K, N] matrix: entry (p, q) is the sum over k of x (p, k) · w (k, q). -/
def prod {M K N : Nat} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem prod_apply {M K N : Nat} (x : FVec Ideal ⟨2, ![M, K]⟩ .f32) (w : FVec Ideal ⟨2, ![K, N]⟩ .f32) (p : Fin M) (q : Fin N) :
    prod x w (ix2 p q) = ∑ k : Fin K, x (ix2 p k) * w (ix2 k q) := rfl

/-- The host's dot_general with the plain dimension numbers (contract the left operand's axis 1 with the right operand's
    axis 0) is the product: both are the same sum over the contracted axis. -/
theorem dotGeneral_plain {M K N : Nat} (wf : DotDims.WF ⟨2, ![M, K]⟩ ⟨2, ![K, N]⟩ ⟨2, ![M, N]⟩ [1] [0] [0] [1] [] [])
    (prec : Option ContractPrecision) (x : FVec Ideal ⟨2, ![M, K]⟩ .f32) (w : FVec Ideal ⟨2, ![K, N]⟩ .f32) :
    Host.dotGeneral (F := Ideal) (Cert.LibMatmul.plainDims M K N wf) prec x w = prod x w := by
  funext i
  obtain ⟨p, q, rfl⟩ : ∃ (p : Fin M) (q : Fin N), i = ix2 p q := ⟨i 0, i 1, eq_ix2 i⟩
  refine (Ideal.dotGeneral_apply (Cert.LibMatmul.plainDims M K N wf) prec .single x w (ix2 p q)).trans ?_
  rw [← Equiv.sum_comp (contrEquiv1 (Cert.LibMatmul.plainDims M K N wf) K (Cert.LibMatmul.contr_rank wf) (Cert.LibMatmul.contr_size wf)).symm]
  refine Finset.sum_congr rfl fun k _ => ?_
  rw [Cert.LibMatmul.lhsIdx_eq, Cert.LibMatmul.rhsIdx_eq]
  rfl

/-! ## The closing step of a layer -/

/-- agg + h · d + b with d an [n, 1] column and b a [1, f] row. -/
def closeCols {n f : Nat} (agg h : FVec Ideal ⟨2, ![n, f]⟩ .f32) (d : FVec Ideal ⟨2, ![n, 1]⟩ .f32) (b : FVec Ideal ⟨2, ![1, f]⟩ .f32) :
    FVec Ideal ⟨2, ![n, f]⟩ .f32 :=
  fun i => agg i + h i * d (ix2 (n0 := n) (i 0) (0 : Fin 1)) + b (ix2 (n1 := f) (0 : Fin 1) (i 1))

/-- agg + h · d + b with d a vector over the rows and b a vector over the columns. -/
def close {n f : Nat} (agg h : FVec Ideal ⟨2, ![n, f]⟩ .f32) (d : FVec Ideal ⟨1, ![n]⟩ .f32) (b : FVec Ideal ⟨1, ![f]⟩ .f32) :
    FVec Ideal ⟨2, ![n, f]⟩ .f32 :=
  fun i => agg i + h i * d (ix1 (n := n) (i 0)) + b (ix1 (n := f) (i 1))

/-- The column form at the vectors cast to a column and to a row is the vector form. -/
theorem closeCols_cast {n f : Nat} (agg h : FVec Ideal ⟨2, ![n, f]⟩ .f32) (d : FVec Ideal ⟨1, ![n]⟩ .f32) (b : FVec Ideal ⟨1, ![f]⟩ .f32)
    (hd : (⟨1, ![n]⟩ : Shape).ShapeCasts ⟨2, ![n, 1]⟩) (hb : (⟨1, ![f]⟩ : Shape).ShapeCasts ⟨2, ![1, f]⟩) :
    closeCols agg h (shapeCast ⟨2, ![n, 1]⟩ d hd) (shapeCast ⟨2, ![1, f]⟩ b hb) = close agg h d b := by
  funext i
  obtain ⟨p, q, rfl⟩ : ∃ (p : Fin n) (q : Fin f), i = ix2 p q := ⟨i 0, i 1, eq_ix2 i⟩
  show agg (ix2 p q) + h (ix2 p q) * shapeCast ⟨2, ![n, 1]⟩ d hd (ix2 p (0 : Fin 1)) + shapeCast ⟨2, ![1, f]⟩ b hb (ix2 (0 : Fin 1) q)
    = agg (ix2 p q) + h (ix2 p q) * d (ix1 p) + b (ix1 q)
  rw [Cert.LibColumn.shapeCast_a_a1_apply, shapeCast_a_1a_apply]

/-- The host's spelling: d broadcast to a column and along the columns, b broadcast to a row and along the rows, one
    multiply and two adds, is the vector form. -/
theorem host_close {n f : Nat} (agg h : FVec Ideal ⟨2, ![n, f]⟩ .f32) (d : FVec Ideal ⟨1, ![n]⟩ .f32) (b : FVec Ideal ⟨1, ![f]⟩ .f32)
    (h1 : (⟨1, ![n]⟩ : Shape).BroadcastsInDim ⟨2, ![n, 1]⟩ (![0] : Fin 1 → Fin 2))
    (h2 : (⟨2, ![n, 1]⟩ : Shape).BroadcastsInDim ⟨2, ![n, f]⟩ (![0, 1] : Fin 2 → Fin 2))
    (h3 : (⟨1, ![f]⟩ : Shape).BroadcastsInDim ⟨2, ![1, f]⟩ (![1] : Fin 1 → Fin 2))
    (h4 : (⟨2, ![1, f]⟩ : Shape).BroadcastsInDim ⟨2, ![n, f]⟩ (![0, 1] : Fin 2 → Fin 2)) :
    addf (addf agg (mulf h (broadcastInDim ⟨2, ![n, f]⟩ ![0, 1] h2 (broadcastInDim ⟨2, ![n, 1]⟩ ![0] h1 d))))
      (broadcastInDim ⟨2, ![n, f]⟩ ![0, 1] h4 (broadcastInDim ⟨2, ![1, f]⟩ ![1] h3 b)) = close agg h d b := by
  funext i
  obtain ⟨p, q, rfl⟩ : ∃ (p : Fin n) (q : Fin f), i = ix2 p q := ⟨i 0, i 1, eq_ix2 i⟩
  have e1 : broadcastInDim ⟨2, ![n, f]⟩ ![0, 1] h2 (broadcastInDim ⟨2, ![n, 1]⟩ ![0] h1 d) (ix2 p q) = d (ix1 p) := by
    refine (broadcastInDim_apply _ h2 _ (ix2 p q) (ix2 p (0 : Fin 1)) fun a => ?_).trans
      (broadcastInDim_apply _ h1 d (ix2 p (0 : Fin 1)) (ix1 p) fun a => ?_)
    · match a with
      | ⟨0, _⟩ =>
        show p.val = if n = 1 then 0 else p.val
        split
        · have := p.isLt; omega
        · rfl
      | ⟨1, _⟩ => rfl
    · match a with
      | ⟨0, _⟩ =>
        show p.val = if n = 1 then 0 else p.val
        split
        · have := p.isLt; omega
        · rfl
  have e2 : broadcastInDim ⟨2, ![n, f]⟩ ![0, 1] h4 (broadcastInDim ⟨2, ![1, f]⟩ ![1] h3 b) (ix2 p q) = b (ix1 q) := by
    refine (broadcastInDim_apply _ h4 _ (ix2 p q) (ix2 (0 : Fin 1) q) fun a => ?_).trans
      (broadcastInDim_apply _ h3 b (ix2 (0 : Fin 1) q) (ix1 q) fun a => ?_)
    · match a with
      | ⟨0, _⟩ => rfl
      | ⟨1, _⟩ =>
        show q.val = if f = 1 then 0 else q.val
        split
        · have := q.isLt; omega
        · rfl
    · match a with
      | ⟨0, _⟩ =>
        show q.val = if f = 1 then 0 else q.val
        split
        · have := q.isLt; omega
        · rfl
  show agg (ix2 p q) + h (ix2 p q) * _ + _ = agg (ix2 p q) + h (ix2 p q) * d (ix1 p) + b (ix1 q)
  rw [e1, e2]

/-! ## The clamp below at zero -/

/-- max (v, 0), entry by entry. -/
def clamp {s : Shape} (v : FVec Ideal s .f32) : FVec Ideal s .f32 := fun i => max (v i) (Ideal.ofBits .f32 0x00000000#32)

/-- The host's spelling — the maximum with the zero constant broadcast to the shape — is the clamp. -/
theorem host_clamp {s : Shape} (v : FVec Ideal s .f32) (h0 : (⟨0, ![]⟩ : Shape).BroadcastsInDim s (![] : Fin 0 → Fin s.rank)) :
    maximumf v (broadcastInDim s ![] h0 (constant (F := Ideal) ⟨0, ![]⟩ .f32 0x00000000#32)) = clamp v := by
  funext i
  show max (v i) (broadcastInDim s ![] h0 (constant (F := Ideal) ⟨0, ![]⟩ .f32 0x00000000#32) i) = max (v i) _
  rw [broadcastInDim_apply _ h0 _ i ix0 (fun a => a.elim0)]
  rfl

end Cert.Gcn

end
-- ==== Proof.RefSide.lean ====
/-
  The reference's dense steps and its mean-pool sum as whole-array functions, over the extended reals.
  * The node encoder  x · W_enc + b_enc  is entry (p, q) ↦ Σ_k x (p, k) · W_enc (k, q) + b_enc q.
  * A layer's product  h · W  is the same function with the zero row for the bias: adding 0 changes no extended real.
  * The sum over the 100000 rows, laid out as one row, is entry (0, q) ↦ 0 + Σ_n h (n, q).
-/
import proofs.«117915_j33311766347862_1_alg».proof.Proof.RefReadP
import proofs.«117915_j33311766347862_1_alg».proof.Proof.LibLayer
import proofs.«117915_j33311766347862_1_alg».proof.Proof.DensePay
import Idealize.ShloMosaic.Lib.ValueLayout
import Idealize.ShloMosaic.PureOps.Ideal.Laws

noncomputable section

namespace Cert.RefSide

open Idealize.ShloMosaic Idealize.ShloMosaic.ValueIdx
open Cert.ReferenceIdeal Cert.ReferenceIdeal.Gen Cert.ReferenceIdeal.ReadP Cert.KernelIdeal.Dense

/-- The node encoder: the dense function of the node features, the encoder's weights and its bias laid out as one row
    is the reference's  x · W_enc + b_enc. -/
theorem encoder_eq (x0 : (⟨S100000x32, .f32⟩ : BufTy).Contents (Elt Ideal)) (x3 : (⟨S32x64, .f32⟩ : BufTy).Contents (Elt Ideal))
    (x4 : (⟨S64, .f32⟩ : BufTy).Contents (Elt Ideal)) (hc : S64.ShapeCasts S1x64) :
    affine (M := 100000) (K := 32) (N := 64) x0 x3 (shapeCast S1x64 x4 hc) = val_main_v33 (F := Ideal) x0 x3 x4 := by
  funext i
  obtain ⟨p, q, rfl⟩ : ∃ (p : Fin 100000) (q : Fin 64), i = ix2 p q := ⟨i 0, i 1, eq_ix2 i⟩
  rw [affine_apply, val_main_v33_apply, val_main_v30_apply, val_main_v32_apply, val_main_v31_apply, shapeCast_a_1a_apply,
    Ideal.addf_def]
  refine congrArg₂ (· + ·) (Finset.sum_congr rfl fun k _ => ?_) ?_
  · refine congrArg₂ (· * ·) (congrArg x0 ?_) (congrArg x3 ?_) <;>
      exact funext fun a => Fin.ext (by match a with | ⟨0, _⟩ => rfl | ⟨1, _⟩ => rfl)
  · exact congrArg x4 (funext fun a => Fin.ext (by match a with | ⟨0, _⟩ => rfl))

/-- A layer's product: the dense function with the all-zero bias row is the reference's  h · W  (a sum plus 0 is the sum,
    at every extended real). -/
theorem product_eq (h : FVec Ideal S100000x64 .f32) (w : FVec Ideal S64x64 .f32)
    (h0 : S_.BroadcastsInDim S1x64 (![] : Fin 0 → Fin 2)) :
    affine (M := 100000) (K := 64) (N := 64) h w (broadcastInDim S1x64 ![] h0 (constant (F := Ideal) S_ .f32 0x00000000#32))
      = Host.dotGeneral (F := Ideal) dot_S100000x64_S64x64_S100000x64_1_0_0_1_n_n none h w := by
  refine Eq.trans ?_ (Cert.Gcn.dotGeneral_plain (M := 100000) (K := 64) (N := 64)
    dot_S100000x64_S64x64_S100000x64_1_0_0_1_n_n.wf none h w).symm
  funext i
  obtain ⟨p, q, rfl⟩ : ∃ (p : Fin 100000) (q : Fin 64), i = ix2 p q := ⟨i 0, i 1, eq_ix2 i⟩
  rw [affine_apply, Cert.Gcn.prod_apply, broadcastInDim_apply _ h0 _ (ix2 (0 : Fin 1) q) ix0 (fun a => a.elim0), constant_apply,
    Ideal.ofBits_zero_f32, add_zero]

/-- The mean pool's sum: the total over the 100000 rows of column q, from a zero start, kept as the one-row matrix the
    reference broadcasts it to. -/
theorem pool_eq (h : FVec Ideal S100000x64 .f32) :
    (fun i : S1x64.Idx => (0 : EReal) + ∑ n : Fin 100000, h (ix2 (n1 := 64) n (i 1)))
      = broadcastInDim S1x64 ![1] bcast_S64_S1x64_1
          (Host.reduceAdd (F := Ideal) h (constant (F := Ideal) S_ .f32 0x00000000#32) reducesTo_S100000x64_S64_d0 h_S_) := by
  funext i
  obtain ⟨u, q, rfl⟩ : ∃ (u : Fin 1) (q : Fin 64), i = ix2 u q := ⟨i 0, i 1, eq_ix2 i⟩
  rw [broadcastInDim_apply _ bcast_S64_S1x64_1 _ (ix2 u q) (ix1 q) (fun a => match a with
    | ⟨0, _⟩ => by show q.val = if (64 : Nat) = 1 then 0 else q.val; rw [if_neg (by decide)])]
  simp only [Host.reduceAdd, Ideal.hostReduceAdd_def]
  rw [Ideal.hostReduceAdd_single reducesTo_S100000x64_S64_d0 (by decide)]
  refine congrArg₂ (· + ·) ?_ (Finset.sum_congr rfl fun k _ => ?_)
  · exact (Ideal.ofBits_zero_f32).symm
  · exact congrArg h (funext fun a => Fin.ext (by match a with | ⟨0, _⟩ => rfl | ⟨1, _⟩ => rfl))

end Cert.RefSide

end
-- ==== Proof.KernelValue.lean ====
/-
  The idealized kernel's result, as the reference's value of the arguments. The run's last boundary is read backwards:
  the closing head on the pooled row; the pooled row from the third layer's output; each layer's output from the launch's
  product by the host's gather / scale / scatter-add / bias / clamp; each product from the layer before; the first from the
  node encoder. At every boundary the buffers that matter hold the reference's value of the same name: the edge lists
  and the edge normalisation (computed once, before the first launch, and never written again), the arguments, and the
  running node features.
-/
import proofs.«117915_j33311766347862_1_alg».proof.Proof.Gen.KernelIdeal.Frame
import proofs.«117915_j33311766347862_1_alg».proof.Proof.HostGraph
import proofs.«117915_j33311766347862_1_alg».proof.Proof.HostLayers
import proofs.«117915_j33311766347862_1_alg».proof.Proof.Dense0
import proofs.«117915_j33311766347862_1_alg».proof.Proof.Dense1
import proofs.«117915_j33311766347862_1_alg».proof.Proof.Dense2
import proofs.«117915_j33311766347862_1_alg».proof.Proof.Dense3
import proofs.«117915_j33311766347862_1_alg».proof.Proof.Pool
import proofs.«117915_j33311766347862_1_alg».proof.Proof.RefSide

set_option maxRecDepth 16384

noncomputable section

open Idealize.ShloMosaic Idealize.ShloMosaic.TcCoe Idealize.SL.Sem Idealize.ShloMosaic.StableHlo

namespace Cert.KernelIdeal.Whole

open Cert.KernelIdeal Cert.KernelIdeal.Gen Cert.KernelIdeal.Host

variable (m : (ℓ : Loc nD τ sig) → Buf (Elt Ideal) ℓ) (ρ : Dev nD → PrngReg) (c : Dev nD)

/-- What every boundary from the first launch on carries unchanged: the two edge lists with the self-loops, the edge
    normalisation, and the arguments still to be read. -/
structure Carried (V : Valuation τ sig (Elt Ideal)) : Prop where
  rows : V (Proc.devRef .tc main_v5) = Cert.ReferenceIdeal.ReadP.val_main_v5 (m ((c : Thread nD τ).loc main_arg2))
  cols : V (Proc.devRef .tc main_v6) = Cert.ReferenceIdeal.ReadP.val_main_v6 (m ((c : Thread nD τ).loc main_arg2))
  norm : V (Proc.devRef .tc main_v29) = Cert.ReferenceIdeal.ReadP.val_main_v29 (m ((c : Thread nD τ).loc main_arg2))
  a7 : V (Proc.devRef .tc main_arg7) = m ((c : Thread nD τ).loc main_arg7)
  a8 : V (Proc.devRef .tc main_arg8) = m ((c : Thread nD τ).loc main_arg8)
  a9 : V (Proc.devRef .tc main_arg9) = m ((c : Thread nD τ).loc main_arg9)
  a10 : V (Proc.devRef .tc main_arg10) = m ((c : Thread nD τ).loc main_arg10)
  a11 : V (Proc.devRef .tc main_arg11) = m ((c : Thread nD τ).loc main_arg11)
  a12 : V (Proc.devRef .tc main_arg12) = m ((c : Thread nD τ).loc main_arg12)

/-- At the first launch's entry: the lists and the normalisation are computed from the edge list by the host's first
    stretch, which writes no argument. -/
theorem carried3 : Carried m c (W3 m ρ c) :=
  ⟨A_rows (W0 m ρ c), A_cols (W0 m ρ c), A_norm (W0 m ρ c),
   (keepA (W0 m ρ c) main_arg7 (by decide) (by decide) (by decide)).trans rfl,
   (keepA (W0 m ρ c) main_arg8 (by decide) (by decide) (by decide)).trans rfl,
   (keepA (W0 m ρ c) main_arg9 (by decide) (by decide) (by decide)).trans rfl,
   (keepA (W0 m ρ c) main_arg10 (by decide) (by decide) (by decide)).trans rfl,
   (keepA (W0 m ρ c) main_arg11 (by decide) (by decide) (by decide)).trans rfl,
   (keepA (W0 m ρ c) main_arg12 (by decide) (by decide) (by decide)).trans rfl⟩

theorem carried4 : Carried m c (W4 m ρ c) :=
  ⟨(W4_of_ne m ρ c main_v5 (by decide)).trans (carried3 m ρ c).rows,
   (W4_of_ne m ρ c main_v6 (by decide)).trans (carried3 m ρ c).cols,
   (W4_of_ne m ρ c main_v29 (by decide)).trans (carried3 m ρ c).norm,
   (W4_of_ne m ρ c main_arg7 (by decide)).trans (carried3 m ρ c).a7,
   (W4_of_ne m ρ c main_arg8 (by decide)).trans (carried3 m ρ c).a8,
   (W4_of_ne m ρ c main_arg9 (by decide)).trans (carried3 m ρ c).a9,
   (W4_of_ne m ρ c main_arg10 (by decide)).trans (carried3 m ρ c).a10,
   (W4_of_ne m ρ c main_arg11 (by decide)).trans (carried3 m ρ c).a11,
   (W4_of_ne m ρ c main_arg12 (by decide)).trans (carried3 m ρ c).a12⟩
theorem carried5 : Carried m c (W5 m ρ c) :=
  ⟨(keepB (W4 m ρ c) main_v5 (by decide)).trans (carried4 m ρ c).rows,
   (keepB (W4 m ρ c) main_v6 (by decide)).trans (carried4 m ρ c).cols,
   (keepB (W4 m ρ c) main_v29 (by decide)).trans (carried4 m ρ c).norm,
   (keepB (W4 m ρ c) main_arg7 (by decide)).trans (carried4 m ρ c).a7,
   (keepB (W4 m ρ c) main_arg8 (by decide)).trans (carried4 m ρ c).a8,
   (keepB (W4 m ρ c) main_arg9 (by decide)).trans (carried4 m ρ c).a9,
   (keepB (W4 m ρ c) main_arg10 (by decide)).trans (carried4 m ρ c).a10,
   (keepB (W4 m ρ c) main_arg11 (by decide)).trans (carried4 m ρ c).a11,
   (keepB (W4 m ρ c) main_arg12 (by decide)).trans (carried4 m ρ c).a12⟩
theorem carried6 : Carried m c (W6 m ρ c) :=
  ⟨(W6_of_ne m ρ c main_v5 (by decide)).trans (carried5 m ρ c).rows,
   (W6_of_ne m ρ c main_v6 (by decide)).trans (carried5 m ρ c).cols,
   (W6_of_ne m ρ c main_v29 (by decide)).trans (carried5 m ρ c).norm,
   (W6_of_ne m ρ c main_arg7 (by decide)).trans (carried5 m ρ c).a7,
   (W6_of_ne m ρ c main_arg8 (by decide)).trans (carried5 m ρ c).a8,
   (W6_of_ne m ρ c main_arg9 (by decide)).trans (carried5 m ρ c).a9,
   (W6_of_ne m ρ c main_arg10 (by decide)).trans (carried5 m ρ c).a10,
   (W6_of_ne m ρ c main_arg11 (by decide)).trans (carried5 m ρ c).a11,
   (W6_of_ne m ρ c main_arg12 (by decide)).trans (carried5 m ρ c).a12⟩
theorem carried9 : Carried m c (W9 m ρ c) :=
  ⟨(keepC (W6 m ρ c) main_v5 (by decide) (by decide) (by decide)).trans (carried6 m ρ c).rows,
   (keepC (W6 m ρ c) main_v6 (by decide) (by decide) (by decide)).trans (carried6 m ρ c).cols,
   (keepC (W6 m ρ c) main_v29 (by decide) (by decide) (by decide)).trans (carried6 m ρ c).norm,
   (keepC (W6 m ρ c) main_arg7 (by decide) (by decide) (by decide)).trans (carried6 m ρ c).a7,
   (keepC (W6 m ρ c) main_arg8 (by decide) (by decide) (by decide)).trans (carried6 m ρ c).a8,
   (keepC (W6 m ρ c) main_arg9 (by decide) (by decide) (by decide)).trans (carried6 m ρ c).a9,
   (keepC (W6 m ρ c) main_arg10 (by decide) (by decide) (by decide)).trans (carried6 m ρ c).a10,
   (keepC (W6 m ρ c) main_arg11 (by decide) (by decide) (by decide)).trans (carried6 m ρ c).a11,
   (keepC (W6 m ρ c) main_arg12 (by decide) (by decide) (by decide)).trans (carried6 m ρ c).a12⟩
theorem carried10 : Carried m c (W10 m ρ c) :=
  ⟨(W10_of_ne m ρ c main_v5 (by decide)).trans (carried9 m ρ c).rows,
   (W10_of_ne m ρ c main_v6 (by decide)).trans (carried9 m ρ c).cols,
   (W10_of_ne m ρ c main_v29 (by decide)).trans (carried9 m ρ c).norm,
   (W10_of_ne m ρ c main_arg7 (by decide)).trans (carried9 m ρ c).a7,
   (W10_of_ne m ρ c main_arg8 (by decide)).trans (carried9 m ρ c).a8,
   (W10_of_ne m ρ c main_arg9 (by decide)).trans (carried9 m ρ c).a9,
   (W10_of_ne m ρ c main_arg10 (by decide)).trans (carried9 m ρ c).a10,
   (W10_of_ne m ρ c main_arg11 (by decide)).trans (carried9 m ρ c).a11,
   (W10_of_ne m ρ c main_arg12 (by decide)).trans (carried9 m ρ c).a12⟩
theorem carried13 : Carried m c (W13 m ρ c) :=
  ⟨(keepD (W10 m ρ c) main_v5 (by decide) (by decide) (by decide)).trans (carried10 m ρ c).rows,
   (keepD (W10 m ρ c) main_v6 (by decide) (by decide) (by decide)).trans (carried10 m ρ c).cols,
   (keepD (W10 m ρ c) main_v29 (by decide) (by decide) (by decide)).trans (carried10 m ρ c).norm,
   (keepD (W10 m ρ c) main_arg7 (by decide) (by decide) (by decide)).trans (carried10 m ρ c).a7,
   (keepD (W10 m ρ c) main_arg8 (by decide) (by decide) (by decide)).trans (carried10 m ρ c).a8,
   (keepD (W10 m ρ c) main_arg9 (by decide) (by decide) (by decide)).trans (carried10 m ρ c).a9,
   (keepD (W10 m ρ c) main_arg10 (by decide) (by decide) (by decide)).trans (carried10 m ρ c).a10,
   (keepD (W10 m ρ c) main_arg11 (by decide) (by decide) (by decide)).trans (carried10 m ρ c).a11,
   (keepD (W10 m ρ c) main_arg12 (by decide) (by decide) (by decide)).trans (carried10 m ρ c).a12⟩
theorem carried14 : Carried m c (W14 m ρ c) :=
  ⟨(W14_of_ne m ρ c main_v5 (by decide)).trans (carried13 m ρ c).rows,
   (W14_of_ne m ρ c main_v6 (by decide)).trans (carried13 m ρ c).cols,
   (W14_of_ne m ρ c main_v29 (by decide)).trans (carried13 m ρ c).norm,
   (W14_of_ne m ρ c main_arg7 (by decide)).trans (carried13 m ρ c).a7,
   (W14_of_ne m ρ c main_arg8 (by decide)).trans (carried13 m ρ c).a8,
   (W14_of_ne m ρ c main_arg9 (by decide)).trans (carried13 m ρ c).a9,
   (W14_of_ne m ρ c main_arg10 (by decide)).trans (carried13 m ρ c).a10,
   (W14_of_ne m ρ c main_arg11 (by decide)).trans (carried13 m ρ c).a11,
   (W14_of_ne m ρ c main_arg12 (by decide)).trans (carried13 m ρ c).a12⟩
theorem carried16 : Carried m c (W16 m ρ c) :=
  ⟨(keepE (W14 m ρ c) main_v5 (by decide) (by decide)).trans (carried14 m ρ c).rows,
   (keepE (W14 m ρ c) main_v6 (by decide) (by decide)).trans (carried14 m ρ c).cols,
   (keepE (W14 m ρ c) main_v29 (by decide) (by decide)).trans (carried14 m ρ c).norm,
   (keepE (W14 m ρ c) main_arg7 (by decide) (by decide)).trans (carried14 m ρ c).a7,
   (keepE (W14 m ρ c) main_arg8 (by decide) (by decide)).trans (carried14 m ρ c).a8,
   (keepE (W14 m ρ c) main_arg9 (by decide) (by decide)).trans (carried14 m ρ c).a9,
   (keepE (W14 m ρ c) main_arg10 (by decide) (by decide)).trans (carried14 m ρ c).a10,
   (keepE (W14 m ρ c) main_arg11 (by decide) (by decide)).trans (carried14 m ρ c).a11,
   (keepE (W14 m ρ c) main_arg12 (by decide) (by decide)).trans (carried14 m ρ c).a12⟩
theorem carried17 : Carried m c (W17 m ρ c) :=
  ⟨(W17_of_ne m ρ c main_v5 (by decide)).trans (carried16 m ρ c).rows,
   (W17_of_ne m ρ c main_v6 (by decide)).trans (carried16 m ρ c).cols,
   (W17_of_ne m ρ c main_v29 (by decide)).trans (carried16 m ρ c).norm,
   (W17_of_ne m ρ c main_arg7 (by decide)).trans (carried16 m ρ c).a7,
   (W17_of_ne m ρ c main_arg8 (by decide)).trans (carried16 m ρ c).a8,
   (W17_of_ne m ρ c main_arg9 (by decide)).trans (carried16 m ρ c).a9,
   (W17_of_ne m ρ c main_arg10 (by decide)).trans (carried16 m ρ c).a10,
   (W17_of_ne m ρ c main_arg11 (by decide)).trans (carried16 m ρ c).a11,
   (W17_of_ne m ρ c main_arg12 (by decide)).trans (carried16 m ρ c).a12⟩

/-! ## The node features, boundary by boundary -/

/-- After the first launch: the encoded node features. -/
theorem encoded : W4 m ρ c (Proc.devRef .tc main_v31) = Cert.ReferenceIdeal.ReadP.val_main_v33 (m ((c : Thread nD τ).loc main_arg0)) (m ((c : Thread nD τ).loc main_arg3)) (m ((c : Thread nD τ).loc main_arg4)) := by
  have e0 : V3 m ρ c main_arg0 = (m ((c : Thread nD τ).loc main_arg0)) := (keepA (W0 m ρ c) main_arg0 (by decide) (by decide) (by decide)).trans rfl
  have e3 : V3 m ρ c main_arg3 = (m ((c : Thread nD τ).loc main_arg3)) := (keepA (W0 m ρ c) main_arg3 (by decide) (by decide) (by decide)).trans rfl
  have eb : V3 m ρ c main_v30 = shapeCast S1x64 (m ((c : Thread nD τ).loc main_arg4)) shapeCasts_S64_S1x64 := A_bias (W0 m ρ c)
  refine (W4_arr m ρ c 3).trans ((Cert.KernelIdeal.Dense0.final (V3 m ρ) c).trans ?_)
  rw [e0, e3, eb]
  exact Cert.RefSide.encoder_eq _ _ _ _

/-- The all-zero bias row, from the second launch's entry to the fourth's: a launch leaves an array it only reads as it found it. -/
theorem zero5 : W5 m ρ c (Proc.devRef .tc main_v32) = broadcastInDim S1x64 ![] bcast_S_S1x64 (constant (F := Ideal) S_ .f32 0x00000000#32) :=
  B_zero (W4 m ρ c)
theorem zero9 : W9 m ρ c (Proc.devRef .tc main_v32) = broadcastInDim S1x64 ![] bcast_S_S1x64 (constant (F := Ideal) S_ .f32 0x00000000#32) :=
  (keepC (W6 m ρ c) main_v32 (by decide) (by decide) (by decide)).trans (((W6_arr m ρ c 2).trans (((dat1 (V5 m ρ) c).arrAt_in 2 rfl _).trans (A_eq1 (V5 m ρ) c 2))).trans (zero5 m ρ c))
theorem zero13 : W13 m ρ c (Proc.devRef .tc main_v32) = broadcastInDim S1x64 ![] bcast_S_S1x64 (constant (F := Ideal) S_ .f32 0x00000000#32) :=
  (keepD (W10 m ρ c) main_v32 (by decide) (by decide) (by decide)).trans (((W10_arr m ρ c 2).trans (((dat2 (V9 m ρ) c).arrAt_in 2 rfl _).trans (A_eq2 (V9 m ρ) c 2))).trans (zero9 m ρ c))

/-- After the second launch: the first layer's product. -/
theorem product1 : W6 m ρ c (Proc.devRef .tc main_v35) = Cert.ReferenceIdeal.ReadP.val_main_v40 (m ((c : Thread nD τ).loc main_arg0)) (m ((c : Thread nD τ).loc main_arg3)) (m ((c : Thread nD τ).loc main_arg4)) (m ((c : Thread nD τ).loc main_arg7)) := by
  have ex : V5 m ρ c main_v31 = Cert.ReferenceIdeal.ReadP.val_main_v33 (m ((c : Thread nD τ).loc main_arg0)) (m ((c : Thread nD τ).loc main_arg3)) (m ((c : Thread nD τ).loc main_arg4)) := (keepB (W4 m ρ c) main_v31 (by decide)).trans (encoded m ρ c)
  have ew : V5 m ρ c main_v34 = Cert.ReferenceIdeal.ReadP.val_main_v39 (m ((c : Thread nD τ).loc main_arg7)) := B_weights (W4 m ρ c) _ (carried4 m ρ c).a7
  have eb : V5 m ρ c main_v32 = _ := zero5 m ρ c
  refine (W6_arr m ρ c 3).trans ((Cert.KernelIdeal.Dense1.final (V5 m ρ) c).trans ?_)
  rw [ex, ew, eb]
  exact Cert.RefSide.product_eq _ _ _

/-- At the third launch's entry: the first layer's output. -/
theorem layer1 : W9 m ρ c (Proc.devRef .tc main_v54) = Cert.ReferenceIdeal.ReadP.val_main_v59 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) :=
  C_layer (W6 m ρ c) _ _ _ _ _ _ (product1 m ρ c) (carried6 m ρ c).rows (carried6 m ρ c).cols (carried6 m ρ c).norm (carried6 m ρ c).a8

/-- After the third launch: the second layer's product. -/
theorem product2 : W10 m ρ c (Proc.devRef .tc main_v57) = Cert.ReferenceIdeal.ReadP.val_main_v62 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) := by
  have ex : V9 m ρ c main_v54 = _ := layer1 m ρ c
  have ew : V9 m ρ c main_v56 = Cert.ReferenceIdeal.ReadP.val_main_v61 (m ((c : Thread nD τ).loc main_arg7)) := C_weights (W6 m ρ c) _ (carried6 m ρ c).a7
  have eb : V9 m ρ c main_v32 = _ := zero9 m ρ c
  refine (W10_arr m ρ c 3).trans ((Cert.KernelIdeal.Dense2.final (V9 m ρ) c).trans ?_)
  rw [ex, ew, eb]
  exact Cert.RefSide.product_eq _ _ _

/-- At the fourth launch's entry: the second layer's output. -/
theorem layer2 : W13 m ρ c (Proc.devRef .tc main_v76) = Cert.ReferenceIdeal.ReadP.val_main_v81 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) :=
  D_layer (W10 m ρ c) _ _ _ _ _ _ (product2 m ρ c) (carried10 m ρ c).rows (carried10 m ρ c).cols (carried10 m ρ c).norm (carried10 m ρ c).a8

/-- After the fourth launch: the third layer's product. -/
theorem product3 : W14 m ρ c (Proc.devRef .tc main_v79) = Cert.ReferenceIdeal.ReadP.val_main_v84 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) := by
  have ex : V13 m ρ c main_v76 = _ := layer2 m ρ c
  have ew : V13 m ρ c main_v78 = Cert.ReferenceIdeal.ReadP.val_main_v83 (m ((c : Thread nD τ).loc main_arg7)) := D_weights (W10 m ρ c) _ (carried10 m ρ c).a7
  have eb : V13 m ρ c main_v32 = _ := zero13 m ρ c
  refine (W14_arr m ρ c 3).trans ((Cert.KernelIdeal.Dense3.final (V13 m ρ) c).trans ?_)
  rw [ex, ew, eb]
  exact Cert.RefSide.product_eq _ _ _

/-- At the last launch's entry: the third layer's output. -/
theorem layer3 : W16 m ρ c (Proc.devRef .tc main_v98) = Cert.ReferenceIdeal.ReadP.val_main_v103 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) :=
  E_layer (W14 m ρ c) _ _ _ _ _ _ (product3 m ρ c) (carried14 m ρ c).rows (carried14 m ρ c).cols (carried14 m ρ c).norm (carried14 m ρ c).a8

/-- After the last launch: the column totals of the third layer's output, as one row. -/
theorem pooled : W17 m ρ c (Proc.devRef .tc main_v99) = Cert.ReferenceIdeal.ReadP.val_main_v105 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) := by
  have ex : V16 m ρ c main_v98 = _ := layer3 m ρ c
  refine (W17_arr m ρ c 1).trans ((Cert.KernelIdeal.Pool.final (V16 m ρ) c).trans ?_)
  unfold Cert.KernelIdeal.Pool.total Cert.KernelIdeal.Pool.src
  rw [ex]
  exact Cert.RefSide.pool_eq _

/-- THE RESULT: the last boundary's contents of the result buffer are the reference's value of the arguments. -/
theorem result : W20 m ρ c (Proc.devRef .tc main_v108)
    = Cert.ReferenceIdeal.ReadP.val_main_v114 (m ((c : Thread nD τ).loc main_arg0)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) :=
  T_head (W17 m ρ c) _ _ _ _ _ _ _ _ _ _ (pooled m ρ c) (carried17 m ρ c).a9 (carried17 m ρ c).a10 (carried17 m ρ c).a11 (carried17 m ρ c).a12

end Cert.KernelIdeal.Whole

end
-- ==== Proof.lean ====
/-
  The claim: a three-layer graph convolution network over 100000 nodes and 1600000 edges — node encoder, three rounds of
  (dense product, gather along edges, scale by the symmetric degree normalisation, scatter-add onto the targets, bias,
  clamp at zero), mean pool, two-layer head — whose kernel runs the four dense products and the pooling sum as five
  blocked launches (20 blocks of 5000 rows each) and leaves the edge-wise steps to the host, computes, over the extended
  reals, what the plain reference computes.
  Both programs do the same host operations on the edge lists, so the edge-wise steps agree as soon as their inputs do.
  The dense launches differ from the reference's products only in being computed block by block (each output row depends
  on its own input row only), in rounding the operands on the way in (the identity on the extended reals), and, for the
  three inner layers, in adding an all-zero bias (x + 0 = x at every extended real, the infinities included). The pooling
  launch adds the column sums of the 20 blocks in order onto zero, the reference sums all 100000 rows at once: the same
  total, addition of extended reals being commutative and associative. No step needs the inputs to be finite.
  The three frames: the two kernels' are the launch proofs of their five regions; the reference's is its run with the
  result dropped. The idealization rewrote nothing, so what it must preserve is trivially true.
-/
import proofs.«117915_j33311766347862_1_alg».proof.Defs
import proofs.«117915_j33311766347862_1_alg».proof.Proof.Gen.Kernel
import proofs.«117915_j33311766347862_1_alg».proof.Proof.Gen.Kernel.Frame
import proofs.«117915_j33311766347862_1_alg».proof.Proof.Gen.KernelIdeal
import proofs.«117915_j33311766347862_1_alg».proof.Proof.Gen.KernelIdeal.Frame
import proofs.«117915_j33311766347862_1_alg».proof.Proof.Gen.ReferenceIdeal
import proofs.«117915_j33311766347862_1_alg».proof.Proof.Gen.Pre_finite_inputs
import proofs.«117915_j33311766347862_1_alg».proof.Proof.KernelRun
import proofs.«117915_j33311766347862_1_alg».proof.Proof.KernelValue
import proofs.«117915_j33311766347862_1_alg».proof.Proof.RefRun
import proofs.«117915_j33311766347862_1_alg».proof.Proof.RefReadP
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end with the result buffer at the reference's value of the kernel's arguments: the kernel's by reading its
    last boundary backwards, the reference's by its own run, the arguments agreeing. -/
theorem algebraic : Cert.algebraic_KernelIdeal_ReferenceIdeal := by
  intro m ρ m' ρ' _ hagree
  refine ⟨fun c => Cert.ReferenceIdeal.ReadP.val_main_v114 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Whole.result m ρ c), (h c).2⟩)
      (Cert.KernelIdeal.RunValue.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨e0, e1, e2, e3, e4, e5, e6, e7, e8, e9, e10, e11, e12⟩ := hagree c
    rw [Cert.ReferenceIdeal.ReadP.val_main_v114_eq, e0, e2, e3, e4, e7, e8, e9, e10, e11, e12]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
